-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096 : Shape := ⟨1, ![4096]⟩
abbrev S1 : Shape := ⟨1, ![1]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S4096x256 .f32) (main_arg1 : IVec S4096 32) (main_arg2 : FVec F S1 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  main_v8
-- ==== Kernel.lean ====
abbrev S4096x256 : Shape := ⟨2, ![4096, 256]⟩
abbrev S4096 : Shape := ⟨1, ![4096]⟩
abbrev S1 : Shape := ⟨1, ![1]⟩
abbrev S4096x1 : Shape := ⟨2, ![4096, 1]⟩
abbrev S1x4096 : Shape := ⟨2, ![1, 4096]⟩
abbrev S1x1 : Shape := ⟨2, ![1, 1]⟩
abbrev S512x256 : Shape := ⟨2, ![512, 256]⟩
abbrev S512x1 : Shape := ⟨2, ![512, 1]⟩
abbrev S1x512 : Shape := ⟨2, ![1, 512]⟩
abbrev S256x512 : Shape := ⟨2, ![256, 512]⟩
abbrev S512x512 : Shape := ⟨2, ![512, 512]⟩
abbrev S512 : Shape := ⟨1, ![512]⟩
abbrev S_ : Shape := ⟨0, ![]⟩

abbrev nBuf : Space → Nat
  | .hbm => 9
  | .vmem => 10
  | .smem => 0
  | _ => 0

abbrev bufTy : (tb : Table) → Fin (tcTables nBuf tb) → BufTy
  | .hbm, ⟨0, _⟩ => ⟨S4096x256, .f32⟩
  | .hbm, ⟨1, _⟩ => ⟨S4096, .i32⟩
  | .hbm, ⟨2, _⟩ => ⟨S1, .f32⟩
  | .hbm, ⟨3, _⟩ => ⟨S4096x1, .i32⟩
  | .hbm, ⟨4, _⟩ => ⟨S1x4096, .i32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x1, .i32⟩
  | .local _ .vmem, ⟨5, _⟩ => ⟨S512x1, .i32⟩
  | .local _ .vmem, ⟨6, _⟩ => ⟨S1x512, .i32⟩
  | .local _ .vmem, ⟨7, _⟩ => ⟨S1x512, .i32⟩
  | .local _ .vmem, ⟨8, _⟩ => ⟨S1x1, .f32⟩
  | .local _ .vmem, ⟨9, _⟩ => ⟨S1x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg0 : BitVec 32 := BitVec.ofNat 32 (i 0).val
  let c7_i32 : BitVec 32 := 7#32
  let v59 : BitVec 1 := Scalar.cmpi .eq arg0 c7_i32
  let arg1 : BitVec 32 := BitVec.ofNat 32 (i 1).val
  let c7_i32_22 : BitVec 32 := 7#32
  let v60 : BitVec 1 := Scalar.cmpi .eq arg1 c7_i32_22
  let v61 : BitVec 1 := Scalar.andi v59 v60
  let v62 : BitVec 32 := Scalar.extui v61
  let c0_i32_23 : BitVec 32 := 0#32
  let v63 : BitVec 1 := Scalar.cmpi .ne v62 c0_i32_23
  v63

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  shapeCasts_S4096_S4096x1 : S4096.ShapeCasts S4096x1
  shapeCasts_S4096_S1x4096 : S4096.ShapeCasts S1x4096
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x256_S512x256_0_0 : ∀ a, (![0, 0] : Fin 2 → Nat) a + S512x256.size a ≤ S512x256.size a
  h_S512x256 : 0 < S512x256.numel
  bitsLt_bf16_f32 : FTy.bits .bf16 < FTy.bits .f32
  transposes_S512x256_p1_0_S256x512 : S512x256.Transposes [1, 0] S256x512
  reduces_S512x256_S512 : S512x256.Reduces [1] S512
  shapeCasts_S512_S512x1 : S512.ShapeCasts S512x1
  transposes_S512x1_p1_0_S1x512 : S512x1.Transposes [1, 0] S1x512
  broadcasts_S512x1_S512x512 : S512x1.Broadcasts S512x512
  broadcasts_S1x512_S512x512 : S1x512.Broadcasts S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  iota_S512x512_d0_w32 : S512x512.Iotas .tc 32 [0]
  iota_S512x512_d1_w32 : S512x512.Iotas .tc 32 [1]
  reduces_S512x512_S512 : S512x512.Reduces [1] S512
  reduces_S512x1_S1 : S512x1.Reduces [0] S1
  shapeCasts_S1_S1x1 : S1.ShapeCasts S1x1
  shapeCasts_S1x1_S_ : S1x1.ShapeCasts S_
  dot_S512x256_S256x512_S512x512_1_0_0_1_n_n_wf : DotDims.WF S512x256 S256x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S4096x256.size a
  hwx0_0 : ∀ i : grid0.Coords, EltTy.bits .f32 = 32 ∨ (Rect.block (s := S4096x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S4096x256.size a
  hwx0_1 : ∀ i : grid0.Coords, EltTy.bits .f32 = 32 ∨ (Rect.block (s := S4096x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .i32 = 32 ∨ (Rect.block (s := S4096x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .i32 = 32 ∨ (Rect.block (s := S1x4096) S1x512.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x256 : Shape := ⟨2, ![4096, 256]⟩
abbrev S4096 : Shape := ⟨1, ![4096]⟩
abbrev S1 : Shape := ⟨1, ![1]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S256x4096 : Shape := ⟨2, ![256, 4096]⟩
abbrev S4095x4095 : Shape := ⟨2, ![4095, 4095]⟩

abbrev nBuf : Space → Nat
  | .hbm => 35
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096, .i32⟩
  | .hbm, ⟨2, _⟩ => ⟨S1, .f32⟩
  | .hbm, ⟨3, _⟩ => ⟨S4096x256, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S1x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S256x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x1, .i32⟩
  | .hbm, ⟨18, _⟩ => ⟨S1x4096, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S_, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4095x4095, .f32⟩
  | .hbm, ⟨29, _⟩ => ⟨S4095x4095, .f32⟩
  | .hbm, ⟨30, _⟩ => ⟨S4095x4095, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x256_S256x4096_1_0 : S4096x256.Transposes [1, 0] S256x4096
  bcast_S_S4096x4096 : S_.BroadcastsInDim S4096x4096 (![] : Fin 0 → Fin S4096x4096.rank)
  slices_S4096x4096_S4095x4095_0_1 : S4096x4096.Slices ![0, 1] S4095x4095
  reducesTo_S4095x4095_S_d0_1 : S4095x4095.ReducesTo [0, 1] S_
  dot_S4096x256_S256x4096_S4096x4096_1_0_0_1_n_n_wf : DotDims.WF S4096x256 S256x4096 S4096x4096 [1] [0] [0] [1] [] []

variable [Facts₀]

def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf

class Facts : Prop extends Facts₀ where

variable [Facts]
-- ==== Proof.K.Data.lean ====
/-
  What the launch, the body and the value of the kernel's region are all stated over.

  The region runs an 8 × 8 grid in row-major order.  At point t = (i, j) the body is handed row block i
  and row block j of the feature matrix (two windows on the one array), the labels of rows
  512 i … 512 i + 511 as a column and those of rows 512 j … 512 j + 511 as a row, and a one-entry
  scratch it keeps between points.  At the first point it stores zero into the scratch; at every point it
  adds the tile's masked sum to it (`step`: the printed arithmetic, one pure term of the four blocks
  and the scratch's entry); at the last point it copies the scratch into the one-entry output block,
  which only that point writes back.  `scrAt n` is what the scratch holds after point n, by recursion
  on n; the proof data say that each input buffer holds its block, the output buffer after the last
  point holds `scrAt 63`, and between points the scratch holds `scrAt` of the point before.
-/
import proofs.«111789_j8203387535487_1_alg».proof.Proof.Gen.Kernel.Launch
import proofs.«111789_j8203387535487_1_alg».proof.Proof.Gen.Kernel.Skeleton
import proofs.«111789_j8203387535487_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- Core `c`'s buffer contents when the region is entered: the launch contents after the two reshapes of the
    label vector that precede the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two branches of the body, decided over the grid -/

/-- "This is the first point": the condition under which the body zeroes its scratch. -/
abbrev cond1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 only. -/
theorem hcond1 : ∀ t : Fin cfg0.N, cond1 (grid0.coords t) ↔ t.val = 0 :=
  (by decide +kernel : ∀ t : Fin grid0.N, cond1 (grid0.coords t) ↔ t.val = 0)

/-- "This is the last point": the condition under which the body copies its scratch to the output block. -/
abbrev cond2 (i : grid0.Coords) : Prop := k0_cond2 i = 1#1
/-- It holds at point 63 only. -/
theorem hcond2 : ∀ t : Fin cfg0.N, cond2 (grid0.coords t) ↔ t.val = 63 :=
  (by decide +kernel : ∀ t : Fin grid0.N, cond2 (grid0.coords t) ↔ t.val = 63)

/-- The input windows are never idle; the output window is idle exactly off the last point, and written back exactly there. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem idle4 : ∀ t : Fin cfg0.N, ¬cond2 (grid0.coords t) → cfg0.idle 4 (grid0.coords t) = true := by decide +kernel
theorem noFlush4 : ∀ t : Fin cfg0.N, ¬cond2 (grid0.coords t) → (cfg0.win 4).flush t = false := by decide +kernel
theorem live4 : ∀ t : Fin cfg0.N, cond2 (grid0.coords t) → cfg0.idle 4 (grid0.coords t) = false := by decide +kernel

/-! ## The staging memrefs the pipeline calls the body with -/

abbrev ms0 (t : Fin cfg0.N) : Memref sig .tc .vmem S512x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
/-- The scratch: a whole scoped buffer of the kernel's own, passed beside the windows. -/
abbrev scM : Memref sig .tc .vmem S1x1 .f32 := Memref.whole cc0_scratch0

/-- The class invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The accumulation -/

/-- What one point adds: the scratch's entry `a` plus the masked sum of the tile, as the printed arithmetic computes it
    from the point's coordinates and its four blocks. -/
def step (i : grid0.Coords) (x0 x1 : Vec F S512x256 .f32) (l0 : Vec F S512x1 .i32) (l1 : Vec F S1x512 .i32) (a : Vec F S1x1 .f32) : Vec F S1x1 .f32 :=
  k0_pay1 (BitVec.ofNat 32 (i 1).val) (k0_pay3 x0 x1) (k0_pay4 l0 l1) (k0_pay5 i) 512#32 a

/-- What the scratch holds after point `n`: at point 0 the step from the zero the body has just stored, afterwards the
    step from what the point before left. -/
def scrAt (c : Dev nD) : (n : ℕ) → n < cfg0.N → Vec F S1x1 .f32
  | 0, hn => step (grid0.coords ⟨0, hn⟩) (iblk m c 0 ⟨0, hn⟩) (iblk m c 1 ⟨0, hn⟩) (iblk m c 2 ⟨0, hn⟩) (iblk m c 3 ⟨0, hn⟩) (k0_pay2 (F := F))
  | n + 1, hn => step (grid0.coords ⟨n + 1, hn⟩) (iblk m c 0 ⟨n + 1, hn⟩) (iblk m c 1 ⟨n + 1, hn⟩) (iblk m c 2 ⟨n + 1, hn⟩) (iblk m c 3 ⟨n + 1, hn⟩) (scrAt c n (Nat.lt_of_succ_lt hn))

theorem scrAt_zero (c : Dev nD) (t : Fin cfg0.N) (h : t.val = 0) :
    scrAt m c t.val t.isLt = step (grid0.coords t) (iblk m c 0 t) (iblk m c 1 t) (iblk m c 2 t) (iblk m c 3 t) (k0_pay2 (F := F)) := by
  obtain ⟨n, hn⟩ := t
  cases n with
  | zero => rfl
  | succ n => exact absurd h (Nat.succ_ne_zero n)

theorem scrAt_pos (c : Dev nD) (t : Fin cfg0.N) (h : t.val ≠ 0) :
    scrAt m c t.val t.isLt = step (grid0.coords t) (iblk m c 0 t) (iblk m c 1 t) (iblk m c 2 t) (iblk m c 3 t)
      (scrAt m c (t.val - 1) (Nat.lt_of_le_of_lt (Nat.sub_le _ _) t.isLt)) := by
  obtain ⟨n, hn⟩ := t
  cases n with
  | zero => exact absurd rfl h
  | succ n => rfl

/-- The region invariant before position `n`: before the first point the scratch at anything; afterwards the scratch at
    what the point before left, and the generator register at some state. -/
def PhiS (c : Dev nD) : (n : ℕ) → n ≤ cfg0.N → sProp 𝕄
  | 0, _ => Pipeline.ΦA spec0 c
  | n + 1, hn => iprop(iprop(owns (c : Thread nD τ) scM fullShare (scrAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (scrAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (scrAt m c (n - 1) (by omega))) ∗ (∃ r, prngReg c r)) := by
  cases n with
  | zero => exact absurd rfl hz
  | succ n => rfl

/-! ## The pipeline's proof data -/

/-- The proof data of the one pipeline on core `c`: the arrays as the region finds them; after the body at point `t`
    each input's buffer at its block and the output's at the scratch's contents (consulted at the last point only,
    the one that stores it and writes it back); the invariant `PhiS`; nothing owed.  The feature matrix is read
    through two windows, each holding half of its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => scrAt m c t.val t.isLt
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = scrAt m c t.val t.isLt := by dsimp only [dats]

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class invariant back: the scratch's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

end Cert.Kernel.Hand

end
-- ==== Proof.K.RunA.lean ====
/-
  The body at the first point: the scratch, found at anything, is loaded (the value is not used) and
  stored whole with zero; the four input blocks are loaded; the scratch is loaded again — it reads the
  zero just stored — and stored with the point's contribution added.  The output block is not touched.
-/
import proofs.«111789_j8203387535487_1_alg».proof.Proof.K.Data
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body leaves in the scratch at the first point, with the proof that from the six buffers owned whole
    — the inputs at their blocks, the output block at anything, the scratch at anything — the body runs to a
    continuation that is handed the inputs and the output block as they were and the scratch with those pieces written. -/
noncomputable def runA (c : Dev nD) (i : grid0.Coords)
    (arg2 : Memref sig .tc .vmem S512x256 .f32) (harg2 : arg2.IsWhole)
    (arg3 : Memref sig .tc .vmem S512x256 .f32) (harg3 : arg3.IsWhole)
    (arg4 : Memref sig .tc .vmem S512x1 .i32) (harg4 : arg4.IsWhole)
    (arg5 : Memref sig .tc .vmem S1x512 .i32) (harg5 : arg5.IsWhole)
    (arg6 : Memref sig .tc .vmem S1x1 .f32) (harg6 : arg6.IsWhole)
    (arg7 : Memref sig .tc .vmem S1x1 .f32) (harg7 : arg7.IsWhole)
    (hc1 : cond1 i) (hc2 : ¬cond2 i)
    (x0 x1 : Vec F S512x256 .f32) (l0 : Vec F S512x1 .i32) (l1 : Vec F S1x512 .i32) :
    { LS : List (View.Piece (Elt F) S1x1 .f32) //
      ∀ (xi : Vec F S1x1 .f32) (E : Set ℕ) (K : PUnit → sProp 𝕄),
        iprop(owns (c : Thread nD τ) arg2 fullShare x0 ∗ owns (c : Thread nD τ) arg3 fullShare x1
            ∗ owns (c : Thread nD τ) arg4 fullShare l0 ∗ owns (c : Thread nD τ) arg5 fullShare l1
            ∗ owns (c : Thread nD τ) arg6 fullShare xi ∗ (∃ d, owns (c : Thread nD τ) arg7 fullShare d)
            ∗ (iprop(owns (c : Thread nD τ) arg2 fullShare x0 ∗ owns (c : Thread nD τ) arg3 fullShare x1
                ∗ owns (c : Thread nD τ) arg4 fullShare l0 ∗ owns (c : Thread nD τ) arg5 fullShare l1
                ∗ owns (c : Thread nD τ) arg6 fullShare xi
                ∗ (∃ f, arg7.view.loc (c : Thread nD τ) ↦[arg7.view.set]{fullShare} arg7.view.writes (Elt F) f LS)) -∗ K ⟨⟩))
          ⊢ wp frame (wpE (defs₀ (F := F)) Variants.none c none) E (cc0_kernel i arg2 harg2 arg3 harg3 arg4 harg4 arg5 harg5 arg6 harg6 arg7 harg7) K } := by
  refine ⟨?_, fun xi E K => ?run⟩
  case run =>
    simp only [cc0_kernel_eq_skeleton]; unfold cc0_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1
    obtain rfl := harg4.eq_unread hf2; obtain rfl := harg5.eq_unread hf3
    obtain rfl := harg6.eq_unread hf4
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

/-- The unit offsets are zero. -/
theorem hzA : (![0, 0] : Fin 2 → Nat) = fun _ => 0 := funext fun a => by fin_cases a <;> rfl

/-- The first point's two stores cover the scratch. -/
theorem coverA (c : Dev nD) (i : grid0.Coords)
    (arg2 : Memref sig .tc .vmem S512x256 .f32) (harg2 : arg2.IsWhole)
    (arg3 : Memref sig .tc .vmem S512x256 .f32) (harg3 : arg3.IsWhole)
    (arg4 : Memref sig .tc .vmem S512x1 .i32) (harg4 : arg4.IsWhole)
    (arg5 : Memref sig .tc .vmem S1x512 .i32) (harg5 : arg5.IsWhole)
    (arg6 : Memref sig .tc .vmem S1x1 .f32) (harg6 : arg6.IsWhole)
    (arg7 : Memref sig .tc .vmem S1x1 .f32) (harg7 : arg7.IsWhole)
    (hc1 : cond1 i) (hc2 : ¬cond2 i)
    (x0 x1 : Vec F S512x256 .f32) (l0 : Vec F S512x1 .i32) (l1 : Vec F S1x512 .i32) (y : S1x1.Idx) :
    ∃ pc ∈ (runA c i arg2 harg2 arg3 harg3 arg4 harg4 arg5 harg5 arg6 harg6 arg7 harg7 hc1 hc2 x0 x1 l0 l1).1, y ∈ pc.1.set :=
  View.cover_of_tiledL (runA c i arg2 harg2 arg3 harg3 arg4 harg4 arg5 harg5 arg6 harg6 arg7 harg7 hc1 hc2 x0 x1 l0 l1).1 S1x1.size (by sl_kernel_rfl) y

/-- What the first point leaves in the scratch, read back through any view over any earlier contents: the step from the
    zero it has just stored (the load between the two stores reads that zero back). -/
theorem readA (c : Dev nD) (i : grid0.Coords)
    (arg2 : Memref sig .tc .vmem S512x256 .f32) (harg2 : arg2.IsWhole)
    (arg3 : Memref sig .tc .vmem S512x256 .f32) (harg3 : arg3.IsWhole)
    (arg4 : Memref sig .tc .vmem S512x1 .i32) (harg4 : arg4.IsWhole)
    (arg5 : Memref sig .tc .vmem S1x512 .i32) (harg5 : arg5.IsWhole)
    (arg6 : Memref sig .tc .vmem S1x1 .f32) (harg6 : arg6.IsWhole)
    (arg7 : Memref sig .tc .vmem S1x1 .f32) (harg7 : arg7.IsWhole)
    (hc1 : cond1 i) (hc2 : ¬cond2 i)
    (x0 x1 : Vec F S512x256 .f32) (l0 : Vec F S512x1 .i32) (l1 : Vec F S1x512 .i32)
    {sig' : RefSig} {κ' : Kind} {sp' : Space} (v : View sig' κ' sp' S1x1 .f32) (f : v.ty.Contents (Elt F)) :
    v.read (Elt F) (v.writes (Elt F) f (runA c i arg2 harg2 arg3 harg3 arg4 harg4 arg5 harg5 arg6 harg6 arg7 harg7 hc1 hc2 x0 x1 l0 l1).1)
      = step i x0 x1 l0 l1 (k0_pay2 (F := F)) := by
  rw [View.read_writes_eq_canon _ _ _ (coverA c i arg2 harg2 arg3 harg3 arg4 harg4 arg5 harg5 arg6 harg6 arg7 harg7 hc1 hc2 x0 x1 l0 l1)]
  unfold runA
  dsimp only
  sl_unfold_words
  rw [View.canon_cons_unit_zero (S := S1x1) hzA, View.readCov_unit_zero (S := S1x1) _ hzA]
  unfold step
  simp only [View.readAt_eq_ld, harg2.read_unread, harg3.read_unread, harg4.read_unread, harg5.read_unread,
    View.ld_unit_zero (S := S512x256) hzA, View.ld_unit_zero (S := S512x1) hzA, View.ld_unit_zero (S := S1x512) hzA, View.ld_unit_zero (S := S1x1) hzA]

end Cert.Kernel.Hand

end
-- ==== Proof.K.RunB.lean ====
/-
  The body at a point that is neither the first nor the last: the scratch is found at what the point
  before left, the four input blocks are loaded, and the scratch is stored once, with the point's
  contribution added to what it held.  The output block is not touched.
-/
import proofs.«111789_j8203387535487_1_alg».proof.Proof.K.Data
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body leaves in the scratch at a middle point, with the proof that from the six buffers owned whole
    — the inputs at their blocks, the output block at anything, the scratch at `xs` — the body runs to a continuation
    that is handed the inputs and the output block as they were and the scratch with those pieces written. -/
noncomputable def runB (c : Dev nD) (i : grid0.Coords)
    (arg2 : Memref sig .tc .vmem S512x256 .f32) (harg2 : arg2.IsWhole)
    (arg3 : Memref sig .tc .vmem S512x256 .f32) (harg3 : arg3.IsWhole)
    (arg4 : Memref sig .tc .vmem S512x1 .i32) (harg4 : arg4.IsWhole)
    (arg5 : Memref sig .tc .vmem S1x512 .i32) (harg5 : arg5.IsWhole)
    (arg6 : Memref sig .tc .vmem S1x1 .f32) (harg6 : arg6.IsWhole)
    (arg7 : Memref sig .tc .vmem S1x1 .f32) (harg7 : arg7.IsWhole)
    (hc1 : ¬cond1 i) (hc2 : ¬cond2 i)
    (x0 x1 : Vec F S512x256 .f32) (l0 : Vec F S512x1 .i32) (l1 : Vec F S1x512 .i32) (xs : Vec F S1x1 .f32) :
    { LS : List (View.Piece (Elt F) S1x1 .f32) //
      ∀ (xi : Vec F S1x1 .f32) (E : Set ℕ) (K : PUnit → sProp 𝕄),
        iprop(owns (c : Thread nD τ) arg2 fullShare x0 ∗ owns (c : Thread nD τ) arg3 fullShare x1
            ∗ owns (c : Thread nD τ) arg4 fullShare l0 ∗ owns (c : Thread nD τ) arg5 fullShare l1
            ∗ owns (c : Thread nD τ) arg6 fullShare xi ∗ owns (c : Thread nD τ) arg7 fullShare xs
            ∗ (iprop(owns (c : Thread nD τ) arg2 fullShare x0 ∗ owns (c : Thread nD τ) arg3 fullShare x1
                ∗ owns (c : Thread nD τ) arg4 fullShare l0 ∗ owns (c : Thread nD τ) arg5 fullShare l1
                ∗ owns (c : Thread nD τ) arg6 fullShare xi
                ∗ (∃ f, arg7.view.loc (c : Thread nD τ) ↦[arg7.view.set]{fullShare} arg7.view.writes (Elt F) f LS)) -∗ K ⟨⟩))
          ⊢ wp frame (wpE (defs₀ (F := F)) Variants.none c none) E (cc0_kernel i arg2 harg2 arg3 harg3 arg4 harg4 arg5 harg5 arg6 harg6 arg7 harg7) K } := by
  refine ⟨?_, fun xi E K => ?run⟩
  case run =>
    simp only [cc0_kernel_eq_skeleton]; unfold cc0_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1
    obtain rfl := harg4.eq_unread hf2; obtain rfl := harg5.eq_unread hf3
    obtain rfl := harg6.eq_unread hf4; obtain rfl := harg7.eq_unread hfs
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

/-- The unit offsets are zero. -/
theorem hzB : (![0, 0] : Fin 2 → Nat) = fun _ => 0 := funext fun a => by fin_cases a <;> rfl

/-- The middle point's one store covers the scratch. -/
theorem coverB (c : Dev nD) (i : grid0.Coords)
    (arg2 : Memref sig .tc .vmem S512x256 .f32) (harg2 : arg2.IsWhole)
    (arg3 : Memref sig .tc .vmem S512x256 .f32) (harg3 : arg3.IsWhole)
    (arg4 : Memref sig .tc .vmem S512x1 .i32) (harg4 : arg4.IsWhole)
    (arg5 : Memref sig .tc .vmem S1x512 .i32) (harg5 : arg5.IsWhole)
    (arg6 : Memref sig .tc .vmem S1x1 .f32) (harg6 : arg6.IsWhole)
    (arg7 : Memref sig .tc .vmem S1x1 .f32) (harg7 : arg7.IsWhole)
    (hc1 : ¬cond1 i) (hc2 : ¬cond2 i)
    (x0 x1 : Vec F S512x256 .f32) (l0 : Vec F S512x1 .i32) (l1 : Vec F S1x512 .i32) (xs : Vec F S1x1 .f32) (y : S1x1.Idx) :
    ∃ pc ∈ (runB c i arg2 harg2 arg3 harg3 arg4 harg4 arg5 harg5 arg6 harg6 arg7 harg7 hc1 hc2 x0 x1 l0 l1 xs).1, y ∈ pc.1.set :=
  View.cover_of_tiledL (runB c i arg2 harg2 arg3 harg3 arg4 harg4 arg5 harg5 arg6 harg6 arg7 harg7 hc1 hc2 x0 x1 l0 l1 xs).1 S1x1.size (by sl_kernel_rfl) y

/-- What a middle point leaves in the scratch, read back through any view over any earlier contents: the step from `xs`. -/
theorem readB (c : Dev nD) (i : grid0.Coords)
    (arg2 : Memref sig .tc .vmem S512x256 .f32) (harg2 : arg2.IsWhole)
    (arg3 : Memref sig .tc .vmem S512x256 .f32) (harg3 : arg3.IsWhole)
    (arg4 : Memref sig .tc .vmem S512x1 .i32) (harg4 : arg4.IsWhole)
    (arg5 : Memref sig .tc .vmem S1x512 .i32) (harg5 : arg5.IsWhole)
    (arg6 : Memref sig .tc .vmem S1x1 .f32) (harg6 : arg6.IsWhole)
    (arg7 : Memref sig .tc .vmem S1x1 .f32) (harg7 : arg7.IsWhole)
    (hc1 : ¬cond1 i) (hc2 : ¬cond2 i)
    (x0 x1 : Vec F S512x256 .f32) (l0 : Vec F S512x1 .i32) (l1 : Vec F S1x512 .i32) (xs : Vec F S1x1 .f32)
    {sig' : RefSig} {κ' : Kind} {sp' : Space} (v : View sig' κ' sp' S1x1 .f32) (f : v.ty.Contents (Elt F)) :
    v.read (Elt F) (v.writes (Elt F) f (runB c i arg2 harg2 arg3 harg3 arg4 harg4 arg5 harg5 arg6 harg6 arg7 harg7 hc1 hc2 x0 x1 l0 l1 xs).1)
      = step i x0 x1 l0 l1 xs := by
  rw [View.read_writes_eq_canon _ _ _ (coverB c i arg2 harg2 arg3 harg3 arg4 harg4 arg5 harg5 arg6 harg6 arg7 harg7 hc1 hc2 x0 x1 l0 l1 xs)]
  unfold runB
  dsimp only
  sl_unfold_words
  rw [View.canon_unit_zero hzB]
  unfold step
  simp only [View.readAt_eq_ld, harg2.read_unread, harg3.read_unread, harg4.read_unread, harg5.read_unread, harg7.read_unread,
    View.ld_unit_zero (S := S512x256) hzB, View.ld_unit_zero (S := S512x1) hzB, View.ld_unit_zero (S := S1x512) hzB, View.ld_unit_zero (S := S1x1) hzB]

end Cert.Kernel.Hand

end
-- ==== Proof.K.RunC.lean ====
/-
  The body at the last point: as at a middle point the scratch, found at what the point before left,
  is stored with the point's contribution added; then the scratch is loaded once more and its
  contents are stored, whole, into the output block (which is loaded first; that value is not used).
-/
import proofs.«111789_j8203387535487_1_alg».proof.Proof.K.Data
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body leaves in the output block and in the scratch at the last point, with the proof that from the
    six buffers owned whole — the inputs at their blocks, the output block at anything, the scratch at `xs` — the body
    runs to a continuation that is handed the inputs as they were and the output block and the scratch with those
    pieces written. -/
noncomputable def runC (c : Dev nD) (i : grid0.Coords)
    (arg2 : Memref sig .tc .vmem S512x256 .f32) (harg2 : arg2.IsWhole)
    (arg3 : Memref sig .tc .vmem S512x256 .f32) (harg3 : arg3.IsWhole)
    (arg4 : Memref sig .tc .vmem S512x1 .i32) (harg4 : arg4.IsWhole)
    (arg5 : Memref sig .tc .vmem S1x512 .i32) (harg5 : arg5.IsWhole)
    (arg6 : Memref sig .tc .vmem S1x1 .f32) (harg6 : arg6.IsWhole)
    (arg7 : Memref sig .tc .vmem S1x1 .f32) (harg7 : arg7.IsWhole)
    (hc1 : ¬cond1 i) (hc2 : cond2 i)
    (x0 x1 : Vec F S512x256 .f32) (l0 : Vec F S512x1 .i32) (l1 : Vec F S1x512 .i32) (xs : Vec F S1x1 .f32) :
    Σ' (L4 : List (View.Piece (Elt F) S1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare l0 ∗ owns (c : Thread nD τ) arg5 fullShare l1
            ∗ (∃ d, owns (c : Thread nD τ) arg6 fullShare d) ∗ owns (c : Thread nD τ) arg7 fullShare xs
            ∗ (iprop(owns (c : Thread nD τ) arg2 fullShare x0 ∗ owns (c : Thread nD τ) arg3 fullShare x1
                ∗ owns (c : Thread nD τ) arg4 fullShare l0 ∗ owns (c : Thread nD τ) arg5 fullShare l1
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E (cc0_kernel i arg2 harg2 arg3 harg3 arg4 harg4 arg5 harg5 arg6 harg6 arg7 harg7) K } := by
  refine ⟨?_, ?_, fun E K => ?run⟩
  case run =>
    simp only [cc0_kernel_eq_skeleton]; unfold cc0_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1
    obtain rfl := harg4.eq_unread hf2; obtain rfl := harg5.eq_unread hf3
    obtain rfl := harg7.eq_unread hfs
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

/-- The unit offsets are zero. -/
theorem hzC : (![0, 0] : Fin 2 → Nat) = fun _ => 0 := funext fun a => by fin_cases a <;> rfl

/-- The last point's store into the scratch covers it; -/
theorem coverCS (c : Dev nD) (i : grid0.Coords)
    (arg2 : Memref sig .tc .vmem S512x256 .f32) (harg2 : arg2.IsWhole)
    (arg3 : Memref sig .tc .vmem S512x256 .f32) (harg3 : arg3.IsWhole)
    (arg4 : Memref sig .tc .vmem S512x1 .i32) (harg4 : arg4.IsWhole)
    (arg5 : Memref sig .tc .vmem S1x512 .i32) (harg5 : arg5.IsWhole)
    (arg6 : Memref sig .tc .vmem S1x1 .f32) (harg6 : arg6.IsWhole)
    (arg7 : Memref sig .tc .vmem S1x1 .f32) (harg7 : arg7.IsWhole)
    (hc1 : ¬cond1 i) (hc2 : cond2 i)
    (x0 x1 : Vec F S512x256 .f32) (l0 : Vec F S512x1 .i32) (l1 : Vec F S1x512 .i32) (xs : Vec F S1x1 .f32) (y : S1x1.Idx) :
    ∃ pc ∈ (runC c i arg2 harg2 arg3 harg3 arg4 harg4 arg5 harg5 arg6 harg6 arg7 harg7 hc1 hc2 x0 x1 l0 l1 xs).2.1, y ∈ pc.1.set :=
  View.cover_of_tiledL (runC c i arg2 harg2 arg3 harg3 arg4 harg4 arg5 harg5 arg6 harg6 arg7 harg7 hc1 hc2 x0 x1 l0 l1 xs).2.1 S1x1.size (by sl_kernel_rfl) y

/-- and so does its store into the output block. -/
theorem coverC4 (c : Dev nD) (i : grid0.Coords)
    (arg2 : Memref sig .tc .vmem S512x256 .f32) (harg2 : arg2.IsWhole)
    (arg3 : Memref sig .tc .vmem S512x256 .f32) (harg3 : arg3.IsWhole)
    (arg4 : Memref sig .tc .vmem S512x1 .i32) (harg4 : arg4.IsWhole)
    (arg5 : Memref sig .tc .vmem S1x512 .i32) (harg5 : arg5.IsWhole)
    (arg6 : Memref sig .tc .vmem S1x1 .f32) (harg6 : arg6.IsWhole)
    (arg7 : Memref sig .tc .vmem S1x1 .f32) (harg7 : arg7.IsWhole)
    (hc1 : ¬cond1 i) (hc2 : cond2 i)
    (x0 x1 : Vec F S512x256 .f32) (l0 : Vec F S512x1 .i32) (l1 : Vec F S1x512 .i32) (xs : Vec F S1x1 .f32) (y : S1x1.Idx) :
    ∃ pc ∈ (runC c i arg2 harg2 arg3 harg3 arg4 harg4 arg5 harg5 arg6 harg6 arg7 harg7 hc1 hc2 x0 x1 l0 l1 xs).1, y ∈ pc.1.set :=
  View.cover_of_tiledL (runC c i arg2 harg2 arg3 harg3 arg4 harg4 arg5 harg5 arg6 harg6 arg7 harg7 hc1 hc2 x0 x1 l0 l1 xs).1 S1x1.size (by sl_kernel_rfl) y

/-- What the last point leaves in the scratch, read back through any view over any earlier contents: the step from `xs`. -/
theorem readCS (c : Dev nD) (i : grid0.Coords)
    (arg2 : Memref sig .tc .vmem S512x256 .f32) (harg2 : arg2.IsWhole)
    (arg3 : Memref sig .tc .vmem S512x256 .f32) (harg3 : arg3.IsWhole)
    (arg4 : Memref sig .tc .vmem S512x1 .i32) (harg4 : arg4.IsWhole)
    (arg5 : Memref sig .tc .vmem S1x512 .i32) (harg5 : arg5.IsWhole)
    (arg6 : Memref sig .tc .vmem S1x1 .f32) (harg6 : arg6.IsWhole)
    (arg7 : Memref sig .tc .vmem S1x1 .f32) (harg7 : arg7.IsWhole)
    (hc1 : ¬cond1 i) (hc2 : cond2 i)
    (x0 x1 : Vec F S512x256 .f32) (l0 : Vec F S512x1 .i32) (l1 : Vec F S1x512 .i32) (xs : Vec F S1x1 .f32)
    {sig' : RefSig} {κ' : Kind} {sp' : Space} (v : View sig' κ' sp' S1x1 .f32) (f : v.ty.Contents (Elt F)) :
    v.read (Elt F) (v.writes (Elt F) f (runC c i arg2 harg2 arg3 harg3 arg4 harg4 arg5 harg5 arg6 harg6 arg7 harg7 hc1 hc2 x0 x1 l0 l1 xs).2.1)
      = step i x0 x1 l0 l1 xs := by
  rw [View.read_writes_eq_canon _ _ _ (coverCS c i arg2 harg2 arg3 harg3 arg4 harg4 arg5 harg5 arg6 harg6 arg7 harg7 hc1 hc2 x0 x1 l0 l1 xs)]
  unfold runC
  dsimp only
  sl_unfold_words
  rw [View.canon_unit_zero hzC]
  unfold step
  simp only [View.readAt_eq_ld, harg2.read_unread, harg3.read_unread, harg4.read_unread, harg5.read_unread, harg7.read_unread,
    View.ld_unit_zero (S := S512x256) hzC, View.ld_unit_zero (S := S512x1) hzC, View.ld_unit_zero (S := S1x512) hzC, View.ld_unit_zero (S := S1x1) hzC]

/-- What the last point leaves in the output block is the same value: the scratch, loaded after its store, reads the
    stored step back, and that is what is stored into the output block. -/
theorem readC4 (c : Dev nD) (i : grid0.Coords)
    (arg2 : Memref sig .tc .vmem S512x256 .f32) (harg2 : arg2.IsWhole)
    (arg3 : Memref sig .tc .vmem S512x256 .f32) (harg3 : arg3.IsWhole)
    (arg4 : Memref sig .tc .vmem S512x1 .i32) (harg4 : arg4.IsWhole)
    (arg5 : Memref sig .tc .vmem S1x512 .i32) (harg5 : arg5.IsWhole)
    (arg6 : Memref sig .tc .vmem S1x1 .f32) (harg6 : arg6.IsWhole)
    (arg7 : Memref sig .tc .vmem S1x1 .f32) (harg7 : arg7.IsWhole)
    (hc1 : ¬cond1 i) (hc2 : cond2 i)
    (x0 x1 : Vec F S512x256 .f32) (l0 : Vec F S512x1 .i32) (l1 : Vec F S1x512 .i32) (xs : Vec F S1x1 .f32)
    {sig' : RefSig} {κ' : Kind} {sp' : Space} (v : View sig' κ' sp' S1x1 .f32) (f : v.ty.Contents (Elt F)) :
    v.read (Elt F) (v.writes (Elt F) f (runC c i arg2 harg2 arg3 harg3 arg4 harg4 arg5 harg5 arg6 harg6 arg7 harg7 hc1 hc2 x0 x1 l0 l1 xs).1)
      = step i x0 x1 l0 l1 xs := by
  rw [View.read_writes_eq_canon _ _ _ (coverC4 c i arg2 harg2 arg3 harg3 arg4 harg4 arg5 harg5 arg6 harg6 arg7 harg7 hc1 hc2 x0 x1 l0 l1 xs)]
  unfold runC
  dsimp only
  sl_unfold_words
  rw [View.canon_unit_zero hzC, View.readCov_unit_zero (S := S1x1) _ hzC]
  unfold step
  simp only [View.readAt_eq_ld, harg2.read_unread, harg3.read_unread, harg4.read_unread, harg5.read_unread, harg7.read_unread,
    View.ld_unit_zero (S := S512x256) hzC, View.ld_unit_zero (S := S512x1) hzC, View.ld_unit_zero (S := S1x512) hzC, View.ld_unit_zero (S := S1x1) hzC]

end Cert.Kernel.Hand

end
-- ==== Proof.K.Body.lean ====
/-
  The body obligation of the kernel's region.  At each of the 64 grid points the body is in one of three
  cases — the first point (the scratch is zeroed, then stepped), a middle point (the scratch is stepped
  from what the point before left), the last point (stepped, then copied into the output block) — and in
  each the case's run applies: the input buffers hold their blocks, the scratch comes from the region
  invariant and goes back to it at the step's value, which is what the case's stores read back as.
-/
import proofs.«111789_j8203387535487_1_alg».proof.Proof.K.RunA
import proofs.«111789_j8203387535487_1_alg».proof.Proof.K.RunB
import proofs.«111789_j8203387535487_1_alg».proof.Proof.K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The input windows' buffers before the body -/

/-- Input window 0's current buffer holds its block at every point, fetched there or not: unfetched, the block index has
    not moved and the buffer still holds the block of the point before, which is this point's. -/
theorem before0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq m c 0]; try rfl) t d).trans
    (by unfold Dat.fetched Dat.blockOf iblk; rw [A_eq m c 0]; try rfl)

/-- Input window 1's current buffer holds its block at every point, fetched there or not: unfetched, the block index has
    not moved and the buffer still holds the block of the point before, which is this point's. -/
theorem before1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq m c 1]; try rfl) t d).trans
    (by unfold Dat.fetched Dat.blockOf iblk; rw [A_eq m c 1]; try rfl)

/-- Input window 2's current buffer holds its block at every point, fetched there or not: unfetched, the block index has
    not moved and the buffer still holds the block of the point before, which is this point's. -/
theorem before2 (c : Dev nD) (t : Fin cfg0.N) (d) : (dats m 0 c).before 2 t d = iblk m c 2 t :=
  ((dats m 0 c).before_in_eq_fetched 2 rfl (fun _ => rfl) (fun _ _ _ => rfl)
      (fun t => by rw [after2]; unfold Dat.blockOf iblk; rw [A_eq m c 2]; try rfl) t d).trans
    (by unfold Dat.fetched Dat.blockOf iblk; rw [A_eq m c 2]; try rfl)

/-- Input window 3's current buffer holds its block at every point, fetched there or not: unfetched, the block index has
    not moved and the buffer still holds the block of the point before, which is this point's. -/
theorem before3 (c : Dev nD) (t : Fin cfg0.N) (d) : (dats m 0 c).before 3 t d = iblk m c 3 t :=
  ((dats m 0 c).before_in_eq_fetched 3 rfl (fun _ => rfl) (fun _ _ _ => rfl)
      (fun t => by rw [after3]; unfold Dat.blockOf iblk; rw [A_eq m c 3]; try rfl) t d).trans
    (by unfold Dat.fetched Dat.blockOf iblk; rw [A_eq m c 3]; try rfl)

/-! ## The body obligation, at a generic point -/

/-- What the body is called with at point `t`: the invariant, the core's debt, and each window's current buffer. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point.  The inputs' buffers hold their blocks; the closed forms of the two conditions say which of
    the three cases the point is in; the invariant hands the body the scratch — at anything at the first point, at what
    the point before left afterwards — and takes it back at the step from there, which is what the case's stores read
    back as; off the last point the output block is idle and is handed back as found, at the last point it is left at
    the scratch's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  have hN : t.val < 64 := lt_of_lt_of_eq t.isLt (show cfg0.N = 64 from N_0)
  by_cases h0 : t.val = 0
  · have hc1 : cond1 (grid0.coords t) := (hcond1 t).mpr h0
    have hc2 : ¬cond2 (grid0.coords t) := fun h => by have := (hcond2 t).mp h; omega
    rw [Dat.leavesExact_idle (dats m 0 c) 4 t (idle4 t hc2) (noFlush4 t hc2)]
    rw [scrAt_zero m c t h0]
    rw [PhiS_castSucc m c t, PhiS_zero m c _ _ h0, PhiA_eq]
    iintro ⟨⟨HS, Hg⟩, Ho, ⟨%d0, H0⟩, ⟨%d1, H1⟩, ⟨%d2, H2⟩, ⟨%d3, H3⟩, ⟨%d4, H4⟩⟩
    iapply ((runA c (grid0.coords t) (ms0 t) (hs0 t) (ms1 t) (hs1 t) (ms2 t) (hs2 t) (ms3 t) (hs3 t) (ms4 t) (hs4 t) scM (Memref.isWhole_whole _) hc1 hc2 (iblk m c 0 t) (iblk m c 1 t) (iblk m c 2 t) (iblk m c 3 t)).2 _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%es, HS⟩⟩
    isplitl [HS Hg]
    · isplitl [HS]
      · unfold owns; iexists _; isplitr
        swap; · iexact HS
        ipureintro
        exact readA c (grid0.coords t) (ms0 t) (hs0 t) (ms1 t) (hs1 t) (ms2 t) (hs2 t) (ms3 t) (hs3 t) (ms4 t) (hs4 t) scM (Memref.isWhole_whole _) hc1 hc2 (iblk m c 0 t) (iblk m c 1 t) (iblk m c 2 t) (iblk m c 3 t) scM.view es
      iexact Hg
    isplitl [Ho]; · iexact Ho
    isplitl [H0]; · iexact H0
    isplitl [H1]; · iexact H1
    isplitl [H2]; · iexact H2
    isplitl [H3]; · iexact H3
    iexists _; iexact H4
  · have hc1 : ¬cond1 (grid0.coords t) := fun h => h0 ((hcond1 t).mp h)
    rw [scrAt_pos m c t h0]
    rw [PhiS_castSucc m c t, PhiS_pos m c _ _ h0]
    by_cases h63 : t.val = 63
    · have hc2 : cond2 (grid0.coords t) := (hcond2 t).mpr h63
      rw [show (dats m 0 c).leavesExact 4 t = owns (c : Thread nD τ) (ms4 t) fullShare ((dats m 0 c).after 4 t) from by
        unfold Dat.leavesExact; rw [live4 t hc2], after4, scrAt_pos m c t h0]
      iintro ⟨⟨HS, Hg⟩, Ho, ⟨%d0, H0⟩, ⟨%d1, H1⟩, ⟨%d2, H2⟩, ⟨%d3, H3⟩, ⟨%d4, H4⟩⟩
      iapply ((runC c (grid0.coords t) (ms0 t) (hs0 t) (ms1 t) (hs1 t) (ms2 t) (hs2 t) (ms3 t) (hs3 t) (ms4 t) (hs4 t) scM (Memref.isWhole_whole _) hc1 hc2 (iblk m c 0 t) (iblk m c 1 t) (iblk m c 2 t) (iblk m c 3 t) (scrAt m c (t.val - 1) (Nat.lt_of_le_of_lt (Nat.sub_le _ _) t.isLt))).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hg]
      · isplitl [HS]
        · unfold owns; iexists _; isplitr
          swap; · iexact HS
          ipureintro
          exact readCS c (grid0.coords t) (ms0 t) (hs0 t) (ms1 t) (hs1 t) (ms2 t) (hs2 t) (ms3 t) (hs3 t) (ms4 t) (hs4 t) scM (Memref.isWhole_whole _) hc1 hc2 (iblk m c 0 t) (iblk m c 1 t) (iblk m c 2 t) (iblk m c 3 t) (scrAt m c (t.val - 1) (Nat.lt_of_le_of_lt (Nat.sub_le _ _) t.isLt)) scM.view es
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro
      exact readC4 c (grid0.coords t) (ms0 t) (hs0 t) (ms1 t) (hs1 t) (ms2 t) (hs2 t) (ms3 t) (hs3 t) (ms4 t) (hs4 t) scM (Memref.isWhole_whole _) hc1 hc2 (iblk m c 0 t) (iblk m c 1 t) (iblk m c 2 t) (iblk m c 3 t) (scrAt m c (t.val - 1) (Nat.lt_of_le_of_lt (Nat.sub_le _ _) t.isLt)) (ms4 t).view e4
    · have hc2 : ¬cond2 (grid0.coords t) := fun h => h63 ((hcond2 t).mp h)
      rw [Dat.leavesExact_idle (dats m 0 c) 4 t (idle4 t hc2) (noFlush4 t hc2)]
      iintro ⟨⟨HS, Hg⟩, Ho, ⟨%d0, H0⟩, ⟨%d1, H1⟩, ⟨%d2, H2⟩, ⟨%d3, H3⟩, ⟨%d4, H4⟩⟩
      iapply ((runB c (grid0.coords t) (ms0 t) (hs0 t) (ms1 t) (hs1 t) (ms2 t) (hs2 t) (ms3 t) (hs3 t) (ms4 t) (hs4 t) scM (Memref.isWhole_whole _) hc1 hc2 (iblk m c 0 t) (iblk m c 1 t) (iblk m c 2 t) (iblk m c 3 t) (scrAt m c (t.val - 1) (Nat.lt_of_le_of_lt (Nat.sub_le _ _) t.isLt))).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hg]
      · isplitl [HS]
        · unfold owns; iexists _; isplitr
          swap; · iexact HS
          ipureintro
          exact readB c (grid0.coords t) (ms0 t) (hs0 t) (ms1 t) (hs1 t) (ms2 t) (hs2 t) (ms3 t) (hs3 t) (ms4 t) (hs4 t) scM (Memref.isWhole_whole _) hc1 hc2 (iblk m c 0 t) (iblk m c 1 t) (iblk m c 2 t) (iblk m c 3 t) (scrAt m c (t.val - 1) (Nat.lt_of_le_of_lt (Nat.sub_le _ _) t.isLt)) scM.view es
        iexact Hg
      isplitl [Ho]; · iexact Ho
      isplitl [H0]; · iexact H0
      isplitl [H1]; · iexact H1
      isplitl [H2]; · iexact H2
      isplitl [H3]; · iexact H3
      iexists _; iexact H4

/-- The body obligation of the pipeline's proof data, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Launch.lean ====
/-
  The launch of the region and the lines around it.

  The kernel's five windows sit on four buffers: the feature matrix is handed to it twice, once for the
  row block i and once for the row block j of the pairwise tile, so the launch cannot give each window its
  array outright.  Both windows only read, so each is given half of the matrix's share, and the halves are
  put together again at the region's exit (`arrays_of_bufs`, `bufs_of_arrays`).  Before the region two
  reshapes lay the label vector out as a column and as a row; after it three lines turn the one-entry
  result into a scalar and scale it.  Those three lines run within all of the core's unscoped buffers at
  the exit contents — the entry contents with the result buffer overwritten by the last point's
  write-back (`Wx`) — and leave the final contents `Wend`.  `run_main` is the run: given the body
  obligation, @main terminates with every window's array at what the proof data compute and every other
  unscoped buffer at `Wend`.
-/
import proofs.«111789_j8203387535487_1_alg».proof.Proof.K.Data
import Idealize.ShloMosaic.Lib.Pipeline.Value
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The five windows' arrays and the four buffers behind them -/

/-- The distinct buffers behind the windows' arrays: the feature matrix (read through two windows), the label
    vector as a column and as a row, and the result. -/
theorem arrImg : Finset.univ.image (Pipeline.arrRef spec0) = [main_arg0, main_v0, main_v1, main_v2].toFinset := by decide

/-- Those buffers conjoined one by one. -/
theorem bigSep_img {M : Type} [URA M] (Φ : Ref sig .tc → sProp M) :
    bigSep (Finset.univ.image (Pipeline.arrRef spec0)) Φ = iprop(Φ main_arg0 ∗ Φ main_v0 ∗ Φ main_v1 ∗ Φ main_v2) :=
  bigSep_eq_bigSepL_of_eq [main_arg0, main_v0, main_v1, main_v2] arrImg (by decide) Φ

/-- The shares the windows hold their arrays at: the feature matrix's two windows a half each, the others whole. -/
theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl

/-- The four distinct buffers behind the five windows' arrays, each whole at the full share, are the proof data's
    arrays at the same contents: the feature matrix's share is halved between the two windows that read it. -/
theorem arrays_of_bufs (c : Dev nD) (Vv : (b : Ref sig .tc) → Buf (Elt F) ((c.tc : Thread nD τ).loc b)) :
    (Pipeline.arrBufs (Ix := Unit) (Name := ℕ) (U := UR sig nD τ) (Lvl := ℕ) spec0 c Vv : sProp 𝕄)
      ⊢ (dats m 0 c).arrays (fun w => Vv (Pipeline.arrRef spec0 w)) := by
  unfold Pipeline.arrBufs Dat.arrays
  rw [bigSep_img, bigSep_W0]
  simp only [share0, share1, share2, share3, share4, View.set_whole]
  iintro ⟨Ha, H0, H1, H2⟩
  ihave Hs := (pointsTo_share (PosShare.mem_left_op_right fullShare)).1 $$ Ha
  icases Hs with ⟨HL, HR⟩
  isplitl [HL]; · iexact HL
  isplitl [HR]; · iexact HR
  isplitl [H0]; · iexact H0
  isplitl [H1]; · iexact H1
  iexact H2

/-- And back: the two halves, at the same contents, make the whole again. -/
theorem bufs_of_arrays (c : Dev nD) (Vv : (b : Ref sig .tc) → Buf (Elt F) ((c.tc : Thread nD τ).loc b)) :
    (dats m 0 c).arrays (fun w => Vv (Pipeline.arrRef spec0 w))
      ⊢ (Pipeline.arrBufs (Ix := Unit) (Name := ℕ) (U := UR sig nD τ) (Lvl := ℕ) spec0 c Vv : sProp 𝕄) := by
  unfold Pipeline.arrBufs Dat.arrays
  rw [bigSep_img, bigSep_W0]
  simp only [share0, share1, share2, share3, share4, View.set_whole]
  iintro ⟨HL, HR, H0, H1, H2⟩
  isplitl [HL HR]
  · iapply (pointsTo_share (PosShare.mem_left_op_right fullShare)).2
    isplitl [HL]; · iexact HL
    iexact HR
  isplitl [H0]; · iexact H0
  isplitl [H1]; · iexact H1
  iexact H2

/-! ## The buffers at the region's exit and after the lines that follow -/

/-- The result array after the run: its entry contents overwritten by what the last point wrote back. -/
def outArr (c : Dev nD) : Buf (Elt F) ((c.tc : Thread nD τ).loc main_v2) := (dats m 0 c).arrAt 4 cfg0.N

/-- Core `c`'s buffer contents at the region's exit: as at its entry, the result buffer at what the last point wrote back. -/
def Wx (c : Dev nD) : Valuation τ sig (Elt F) := Function.update (V0 m c) (Proc.devRef .tc main_v2) (outArr m c)

/-- The same after the three host lines that follow the region. -/
abbrev Wend (c : Dev nD) : Valuation τ sig (Elt F) := StableHlo.after (List.flatten [hostOps1]) (Wx m c)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The exit contents differ from the entry contents at the result buffer only. -/
theorem Wx_of_ne (c : Dev nD) (b : Ref sig .tc) (hb : b ≠ main_v2) : Wx m c (Proc.devRef .tc b) = V m c b := by
  unfold Wx; rw [Function.update_of_ne (StableHlo.devRef_ne_of_ne hb)]
theorem Wx_out (c : Dev nD) : Wx m c (Proc.devRef .tc main_v2) = outArr m c := by
  unfold Wx; exact Function.update_self _ _ _

/-- At the region's exit every window's array holds the exit contents of the buffer behind it: an input array is
    never written, and the result array is the one buffer the exit contents differ at. -/
theorem arrAt_exit (c : Dev nD) : ∀ w : Fin cfg0.W,
    (dats m 0 c).arrAt w cfg0.N = Wx m c (Proc.devRef .tc (Pipeline.arrRef spec0 w)) := by
  intro w
  fin_cases w
  · exact ((dats m 0 c).arrAt_in 0 rfl _).trans (Wx_of_ne m c main_arg0 (by decide)).symm
  · exact ((dats m 0 c).arrAt_in 1 rfl _).trans (Wx_of_ne m c main_arg0 (by decide)).symm
  · exact ((dats m 0 c).arrAt_in 2 rfl _).trans (Wx_of_ne m c main_v0 (by decide)).symm
  · exact ((dats m 0 c).arrAt_in 3 rfl _).trans (Wx_of_ne m c main_v1 (by decide)).symm
  · exact (Wx_out m c).symm

/-- The three lines after the region write the scalar result's three buffers and nothing else. -/
theorem hostOps1_writes : (hostOps1 : List (HloOp τ sig (Elt F))).Forall fun op =>
    op.writes ⊆ (([main_v3, main_cst, main_v4] : List (Ref sig .tc)).map (Proc.devRef (τ := τ) .tc)).toFinset := by
  simp only [hostOps1, List.Forall, StableHlo.nullary_writes, StableHlo.binary_writes, StableHlo.reshape_writes,
    List.map_cons, List.map_nil, List.toFinset_cons, List.toFinset_nil, Finset.singleton_subset_iff, Finset.mem_insert,
    Finset.mem_singleton, true_or, or_true, and_self]

/-- So a buffer other than those three holds after the lines what it held at the region's exit. -/
theorem Wend_of_not_written (c : Dev nD) (r : Ref sig .tc) (hr : r ∉ ([main_v3, main_cst, main_v4] : List (Ref sig .tc))) :
    Wend m c (Proc.devRef .tc r) = Wx m c (Proc.devRef .tc r) := by
  unfold Wend
  simp only [List.flatten_cons, List.flatten_nil, List.append_nil]
  exact StableHlo.after_of_writes_sub _ _ hostOps1_writes hr

theorem tail_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)

theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- The buffers that bypass the region are not the result buffer. -/
theorem ne_out_of_rest {b : Ref sig .tc} (hb : b ∈ Pipeline.restRefs sig spec0) : b ≠ main_v2 := fun e =>
  (Finset.mem_sdiff.mp hb).2 (e ▸ Finset.mem_image.mpr ⟨4, Finset.mem_univ _, rfl⟩)

/-- AT THE EXIT: the windows' arrays at their final contents and the bypassing buffers at their entry contents are
    the core's unscoped buffers at the exit contents. -/
theorem exit_bufs (c : Dev nD) :
    iprop((dats m 0 c).arrays ((dats m 0 c).arrAt · cfg0.N)
        ∗ Pipeline.unscopedRest (Ix := Unit) (Name := ℕ) (U := UR sig nD τ) (Lvl := ℕ) spec0 c (V m c))
      ⊢ (StableHlo.held (c.tc : Thread nD τ) (Pipeline.ucRefs τ sig) (Wx m c) : sProp 𝕄) := by
  rw [show ((dats m 0 c).arrAt · cfg0.N) = fun w => (fun b : Ref sig .tc => Wx m c (Proc.devRef .tc b)) (Pipeline.arrRef spec0 w)
      from funext (arrAt_exit m c),
    ← Pipeline.unscopedBufs_held (Ix := Unit) (Name := ℕ) (U := UR sig nD τ) (Lvl := ℕ) c (Wx m c),
    Pipeline.unscopedBufs_split₀ cfgs (0 : Fin 1) winFacts₀0.arr_unscoped c (fun b => Wx m c (Proc.devRef .tc b))]
  refine sep_mono (bufs_of_arrays m c (fun b => Wx m c (Proc.devRef .tc b))) (Entails.of_eq ?_)
  unfold Pipeline.unscopedRest
  exact bigSep_congr fun b hb => by dsimp only; rw [Wx_of_ne m c b (ne_out_of_rest hb)]

/-- AFTER THE LINES: the core's unscoped buffers at the final contents are the windows' arrays, still at their
    exit contents (the lines write none of them), and the bypassing buffers at the final contents. -/
theorem end_bufs (c : Dev nD) :
    (StableHlo.held (c.tc : Thread nD τ) (Pipeline.ucRefs τ sig) (Wend m c) : sProp 𝕄)
      ⊢ iprop((dats m 0 c).arrays ((dats m 0 c).arrAt · cfg0.N)
        ∗ Pipeline.unscopedRest (Ix := Unit) (Name := ℕ) (U := UR sig nD τ) (Lvl := ℕ) spec0 c (fun b => Wend m c (Proc.devRef .tc b))) := by
  rw [show ((dats m 0 c).arrAt · cfg0.N) = fun w => (fun b : Ref sig .tc => Wend m c (Proc.devRef .tc b)) (Pipeline.arrRef spec0 w)
      from funext fun w => (arrAt_exit m c w).trans (by
        fin_cases w
        · exact (Wend_of_not_written m c main_arg0 (by decide)).symm
        · exact (Wend_of_not_written m c main_arg0 (by decide)).symm
        · exact (Wend_of_not_written m c main_v0 (by decide)).symm
        · exact (Wend_of_not_written m c main_v1 (by decide)).symm
        · exact (Wend_of_not_written m c main_v2 (by decide)).symm),
    ← Pipeline.unscopedBufs_held (Ix := Unit) (Name := ℕ) (U := UR sig nD τ) (Lvl := ℕ) c (Wend m c),
    Pipeline.unscopedBufs_split₀ cfgs (0 : Fin 1) winFacts₀0.arr_unscoped c (fun b => Wend m c (Proc.devRef .tc b))]
  exact sep_mono (arrays_of_bufs m c (fun b => Wend m c (Proc.devRef .tc b))) .rfl

/-! ## The run -/

/-- @main around the region: the two reshapes, the region, the three lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub hostOps0_fresh main_chain

/-- THE LINES AFTER THE REGION: from the boundary, the windows' arrays at their final contents and the bypassing
    buffers at their entry contents, the three lines run within the core's unscoped buffers and hand the arrays back
    as they were and the bypassing buffers at the final contents. -/
theorem tail_run (c : Dev nD) (Q' : PUnit → sProp 𝕄) :
    iprop((iprop((dats m 0 c).arrays ((dats m 0 c).arrAt · cfg0.N)
              ∗ Pipeline.unscopedRestP (Ix := Unit) (Name := ℕ) (U := UR sig nD τ) (Lvl := ℕ) Pipeline.Prefetch.none spec0 c (fun b => Wend m c (Proc.devRef .tc b))) -∗ Q' ⟨⟩)
        ∗ boundary (c.tc : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (Pipeline.defs (fun q => Cfg.toPCfg (Val := Elt F) (cfgs q)) (defs₀ (F := F))) (Variants.lift Variants.none) (c.tc : Thread nD τ) none) Set.univ
          (Pipeline.chain [StableHlo.seq hostOps1]) Q' := by
  rw [Pipeline.unscopedRestP_none, Pipeline.unscopedRestP_none]
  show _ ⊢ wp frame _ Set.univ (Pipeline.chain (([hostOps1] : List (List (HloOp τ sig (Elt F)))).map StableHlo.seq ++ [])) Q'
  iintro ⟨Hk, Hb, Ha, Hz⟩
  iapply (Pipeline.wp_seqs_then (fun q => Cfg.toPCfg (Val := Elt F) (cfgs q)) (defs₀ (F := F)) Variants.none c (Pipeline.ucRefs τ sig) []
    [hostOps1] tail_sub tail_fresh (Wx m c)) $$ [Hb Ha Hz]
  · isplitl [Hb]; · iexact Hb
    iapply (exit_bufs m c)
    isplitl [Ha]; · iexact Ha
    iexact Hz
  iintro Hb
  rw [Pipeline.chain_nil, wp_pure]
  imodintro
  iapply Hk
  icases Hb with ⟨-, H⟩
  iapply (end_bufs m c)
  iexact H

set_option backward.isDefEq.respectTransparency.types false in
/-- THE RUN.  At the compiled mesh, for any values, from any memory with zero counters: given the body obligation,
    every weakly fair execution of @main on the TensorCores terminates, and in every final state each window's array
    holds what the proof data compute for it and every other unscoped buffer what the three lines after the region
    leave in it. The feature matrix is handed to two windows, so the launch is stated from its fields: the buffers
    behind the arrays are dealt to the windows by halving that one array's share. -/
theorem run_main (hbody : ∀ c, BodyObligation (dats (F := F) m 0 c) (defs₀ (F := F)) Variants.none () Set.univ) :
    θ_run defs (onTc (τ := τ) (main (F := F))) (s₀ m ρ)
      (Pipeline.FramePost cfgs (dats m) 0 (fun c b => Wend m c (Proc.devRef .tc b))) := by
  classical
  exact Pipeline.θ_run_region_pf_tail (fun q => Cfg.toPCfg (Val := Elt F) (cfgs q)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (hbody c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_of_bufs m c (V m c))
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (fun b => Wend m c (Proc.devRef .tc b)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => tail_run m c Q')
    (QY := fun c s => ∀ b ∈ Pipeline.restRefs sig spec0, s.mem ((c.tc : Thread nD τ).loc b) = Wend m c (Proc.devRef .tc b))
    (hY := fun c s' => by
      rw [Pipeline.unscopedRestP_none]
      iintro ⟨-, HU, HSI⟩
      unfold Pipeline.unscopedRest
      imodintro
      iapply (pointsTo_read_all (Pipeline.restRefs sig spec0) (fun b => (c.tc : Thread nD τ).loc b) (fun b => Wend m c (Proc.devRef .tc b)) s')
      isplitl [HU] <;> iassumption)
    (hQ := fun s h c => ⟨(h c).1, (h c).2.2⟩)

/-! ## What the run leaves: the arguments unchanged, the result buffer -/

/-- The two reshapes before the region write the label vector's two layouts and nothing else. -/
theorem hostOps0_writes : (hostOps0 : List (HloOp τ sig (Elt F))).Forall fun op =>
    op.writes ⊆ (([main_v0, main_v1] : List (Ref sig .tc)).map (Proc.devRef (τ := τ) .tc)).toFinset := by
  simp only [hostOps0, List.Forall, StableHlo.reshape_writes,
    List.map_cons, List.map_nil, List.toFinset_cons, List.toFinset_nil, Finset.singleton_subset_iff, Finset.mem_insert,
    Finset.mem_singleton, true_or, or_true, and_self]

/-- So a buffer other than those two is found by the region as the launch left it. -/
theorem V_of_not_written (c : Dev nD) (r : Ref sig .tc) (hr : r ∉ ([main_v0, main_v1] : List (Ref sig .tc))) :
    V m c r = m ((c.tc : Thread nD τ).loc r) := by
  show StableHlo.after (List.flatten [hostOps0]) (fun b => m (c, b)) (Proc.devRef .tc r) = _
  simp only [List.flatten_cons, List.flatten_nil, List.append_nil]
  exact StableHlo.after_of_writes_sub _ _ hostOps0_writes hr

/-- A buffer that neither the reshapes, nor the region, nor the lines after it write ends as the launch left it. -/
theorem Wend_kept (c : Dev nD) (r : Ref sig .tc) (h0 : r ∉ ([main_v0, main_v1] : List (Ref sig .tc))) (h2 : r ≠ main_v2)
    (h1 : r ∉ ([main_v3, main_cst, main_v4] : List (Ref sig .tc))) :
    Wend m c (Proc.devRef .tc r) = m ((c.tc : Thread nD τ).loc r) :=
  (Wend_of_not_written m c r h1).trans ((Wx_of_ne m c r h2).trans (V_of_not_written m c r h0))

/-- THE FRAME: given the body obligation, @main terminates, nothing faults, and its three argument arrays end as
    they were launched. The feature matrix is an array of the pipeline that no point writes back; the label vector
    and the unused third argument bypass the region and no host line writes them. -/
theorem frame (hbody : ∀ c, BodyObligation (dats (F := F) m 0 c) (defs₀ (F := F)) Variants.none () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans ((A_eq m c 0).trans (V_of_not_written m c main_arg0 (by decide)))),
     ((h c).2 main_arg1 (Pipeline.mem_restRefs_of main_arg1 rfl (by decide))).trans (Wend_kept m c main_arg1 (by decide) (by decide) (by decide)),
     ((h c).2 main_arg2 (Pipeline.mem_restRefs_of main_arg2 rfl (by decide))).trans (Wend_kept m c main_arg2 (by decide) (by decide) (by decide))⟩)
    (run_main m ρ hbody)

/-- The last point is point 63. -/
theorem last_lt : 63 < cfg0.N := by have : cfg0.N = 64 := N_0; omega

/-- A [1, 1] array has one index. -/
theorem idx11_eq (i j : (⟨2, ![1, 1]⟩ : Shape).Idx) : i = j :=
  funext fun d => Fin.ext (by
    have hi : (i d).val < 1 := by fin_cases d <;> exact (i _).isLt
    have hj : (j d).val < 1 := by fin_cases d <;> exact (j _).isLt
    omega)

/-- THE RESULT ARRAY after the run is what the scratch held after the last point: only that point writes the
    one-entry block back, and the block is the whole array. -/
theorem outArr_eq (c : Dev nD) : outArr m c = scrAt m c 63 last_lt := by
  unfold outArr
  refine (dats m 0 c).arrAt_eq_of_cover 4 (scrAt m c 63 last_lt) (fun t hf => ?_) (fun i => ⟨⟨63, last_lt⟩, by decide +kernel, ?_⟩)
  · have ht : t = ⟨63, last_lt⟩ := Fin.ext (by
      show t.val = 63
      have h1 := (flush0_4 t).mp hf
      have h2 : t.val < 64 := lt_of_lt_of_eq t.isLt N_0
      omega)
    subst ht
    show (cfg0.win 4).cut (cfg0.grid.coords ⟨63, last_lt⟩) ((dats m 0 c).after 4 ⟨63, last_lt⟩) = _
    rw [after4]
    funext y
    rw [View.read_apply]
    show scrAt m c 63 last_lt y = scrAt m c 63 last_lt (((cfg0.win 4).blk ⟨63, last_lt⟩).view.emb y)
    exact congrArg (scrAt m c 63 last_lt) (idx11_eq _ _)
  · have h := ((cfg0.win 4).blk ⟨63, last_lt⟩).view.emb_mem_set (ValueIdx.ix2 (0 : Fin 1) (0 : Fin 1))
    exact (idx11_eq _ i) ▸ h

/-- THE RUN WITH ITS RESULT: as `frame`, and the scalar result buffer ends at what the three lines after the region
    compute from the exit contents. -/
theorem run_value (hbody : ∀ c, BodyObligation (dats (F := F) m 0 c) (defs₀ (F := F)) Variants.none () Set.univ) :
    θ_run defs (onTc (τ := τ) (main (F := F))) ⟨m, fun _ => 0, ρ⟩ (fun r => ∀ c : Dev nD,
      r.2.mem ((c.tc : Thread nD τ).loc main_v4) = Wend m c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).2 main_v4 (Pipeline.mem_restRefs_of main_v4 rfl (by decide)),
     ((h c).1 0).trans (((dats m 0 c).arrAt_in 0 rfl _).trans ((A_eq m c 0).trans (V_of_not_written m c main_arg0 (by decide)))),
     ((h c).2 main_arg1 (Pipeline.mem_restRefs_of main_arg1 rfl (by decide))).trans (Wend_kept m c main_arg1 (by decide) (by decide) (by decide)),
     ((h c).2 main_arg2 (Pipeline.mem_restRefs_of main_arg2 rfl (by decide))).trans (Wend_kept m c main_arg2 (by decide) (by decide) (by decide))⟩)
    (run_main m ρ hbody)

/-- The scalar result buffer after the lines: the scale word times the one entry of the result array, which is the
    scratch's entry after the last point. -/
theorem Wend_v4 (c : Dev nD) :
    (Wend m c (Proc.devRef .tc main_v4) : (⟨S_, .f32⟩ : BufTy).Contents (Elt F))
      = mulf (constant S_ .f32 0x39000000#32) (fun _ => scrAt m c 63 last_lt (ValueIdx.ix2 (0 : Fin 1) (0 : Fin 1))) := by
  unfold Wend
  simp only [hostOps1, List.flatten_cons, List.flatten_nil, List.append_nil]
  after_results
  refine congrArg (mulf (constant S_ .f32 0x39000000#32)) (funext fun i => ?_)
  rw [Wx_out, outArr_eq]
  show shapeCast S_ (scrAt m c 63 last_lt) shapeCasts_S1x1_S_ i = _
  unfold shapeCast
  exact congrArg (scrAt m c 63 last_lt) (idx11_eq _ _)

end Cert.Kernel.Hand

end
-- ==== Proof.KI.Data.lean ====
/-
  What the launch, the body and the value of the kernel's region are all stated over.

  The region runs an 8 × 8 grid in row-major order.  At point t = (i, j) the body is handed row block i
  and row block j of the feature matrix (two windows on the one array), the labels of rows
  512 i … 512 i + 511 as a column and those of rows 512 j … 512 j + 511 as a row, and a one-entry
  scratch it keeps between points.  At the first point it stores zero into the scratch; at every point it
  adds the tile's masked sum to it (`step`: the printed arithmetic, one pure term of the four blocks
  and the scratch's entry); at the last point it copies the scratch into the one-entry output block,
  which only that point writes back.  `scrAt n` is what the scratch holds after point n, by recursion
  on n; the proof data say that each input buffer holds its block, the output buffer after the last
  point holds `scrAt 63`, and between points the scratch holds `scrAt` of the point before.
-/
import proofs.«111789_j8203387535487_1_alg».proof.Proof.Gen.KernelIdeal.Launch
import proofs.«111789_j8203387535487_1_alg».proof.Proof.Gen.KernelIdeal.Skeleton
import proofs.«111789_j8203387535487_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- Core `c`'s buffer contents when the region is entered: the launch contents after the two reshapes of the
    label vector that precede the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two branches of the body, decided over the grid -/

/-- "This is the first point": the condition under which the body zeroes its scratch. -/
abbrev cond1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 only. -/
theorem hcond1 : ∀ t : Fin cfg0.N, cond1 (grid0.coords t) ↔ t.val = 0 :=
  (by decide +kernel : ∀ t : Fin grid0.N, cond1 (grid0.coords t) ↔ t.val = 0)

/-- "This is the last point": the condition under which the body copies its scratch to the output block. -/
abbrev cond2 (i : grid0.Coords) : Prop := k0_cond2 i = 1#1
/-- It holds at point 63 only. -/
theorem hcond2 : ∀ t : Fin cfg0.N, cond2 (grid0.coords t) ↔ t.val = 63 :=
  (by decide +kernel : ∀ t : Fin grid0.N, cond2 (grid0.coords t) ↔ t.val = 63)

/-- The input windows are never idle; the output window is idle exactly off the last point, and written back exactly there. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem idle4 : ∀ t : Fin cfg0.N, ¬cond2 (grid0.coords t) → cfg0.idle 4 (grid0.coords t) = true := by decide +kernel
theorem noFlush4 : ∀ t : Fin cfg0.N, ¬cond2 (grid0.coords t) → (cfg0.win 4).flush t = false := by decide +kernel
theorem live4 : ∀ t : Fin cfg0.N, cond2 (grid0.coords t) → cfg0.idle 4 (grid0.coords t) = false := by decide +kernel

/-! ## The staging memrefs the pipeline calls the body with -/

abbrev ms0 (t : Fin cfg0.N) : Memref sig .tc .vmem S512x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
/-- The scratch: a whole scoped buffer of the kernel's own, passed beside the windows. -/
abbrev scM : Memref sig .tc .vmem S1x1 .f32 := Memref.whole cc0_scratch0

/-- The class invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The accumulation -/

/-- What one point adds: the scratch's entry `a` plus the masked sum of the tile, as the printed arithmetic computes it
    from the point's coordinates and its four blocks. -/
def step (i : grid0.Coords) (x0 x1 : Vec F S512x256 .f32) (l0 : Vec F S512x1 .i32) (l1 : Vec F S1x512 .i32) (a : Vec F S1x1 .f32) : Vec F S1x1 .f32 :=
  k0_pay1 (BitVec.ofNat 32 (i 1).val) (k0_pay3 x0 x1) (k0_pay4 l0 l1) (k0_pay5 i) 512#32 a

/-- What the scratch holds after point `n`: at point 0 the step from the zero the body has just stored, afterwards the
    step from what the point before left. -/
def scrAt (c : Dev nD) : (n : ℕ) → n < cfg0.N → Vec F S1x1 .f32
  | 0, hn => step (grid0.coords ⟨0, hn⟩) (iblk m c 0 ⟨0, hn⟩) (iblk m c 1 ⟨0, hn⟩) (iblk m c 2 ⟨0, hn⟩) (iblk m c 3 ⟨0, hn⟩) (k0_pay2 (F := F))
  | n + 1, hn => step (grid0.coords ⟨n + 1, hn⟩) (iblk m c 0 ⟨n + 1, hn⟩) (iblk m c 1 ⟨n + 1, hn⟩) (iblk m c 2 ⟨n + 1, hn⟩) (iblk m c 3 ⟨n + 1, hn⟩) (scrAt c n (Nat.lt_of_succ_lt hn))

theorem scrAt_zero (c : Dev nD) (t : Fin cfg0.N) (h : t.val = 0) :
    scrAt m c t.val t.isLt = step (grid0.coords t) (iblk m c 0 t) (iblk m c 1 t) (iblk m c 2 t) (iblk m c 3 t) (k0_pay2 (F := F)) := by
  obtain ⟨n, hn⟩ := t
  cases n with
  | zero => rfl
  | succ n => exact absurd h (Nat.succ_ne_zero n)

theorem scrAt_pos (c : Dev nD) (t : Fin cfg0.N) (h : t.val ≠ 0) :
    scrAt m c t.val t.isLt = step (grid0.coords t) (iblk m c 0 t) (iblk m c 1 t) (iblk m c 2 t) (iblk m c 3 t)
      (scrAt m c (t.val - 1) (Nat.lt_of_le_of_lt (Nat.sub_le _ _) t.isLt)) := by
  obtain ⟨n, hn⟩ := t
  cases n with
  | zero => exact absurd rfl h
  | succ n => rfl

/-- The region invariant before position `n`: before the first point the scratch at anything; afterwards the scratch at
    what the point before left, and the generator register at some state. -/
def PhiS (c : Dev nD) : (n : ℕ) → n ≤ cfg0.N → sProp 𝕄
  | 0, _ => Pipeline.ΦA spec0 c
  | n + 1, hn => iprop(iprop(owns (c : Thread nD τ) scM fullShare (scrAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (scrAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (scrAt m c (n - 1) (by omega))) ∗ (∃ r, prngReg c r)) := by
  cases n with
  | zero => exact absurd rfl hz
  | succ n => rfl

/-! ## The pipeline's proof data -/

/-- The proof data of the one pipeline on core `c`: the arrays as the region finds them; after the body at point `t`
    each input's buffer at its block and the output's at the scratch's contents (consulted at the last point only,
    the one that stores it and writes it back); the invariant `PhiS`; nothing owed.  The feature matrix is read
    through two windows, each holding half of its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => scrAt m c t.val t.isLt
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = scrAt m c t.val t.isLt := by dsimp only [dats]

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class invariant back: the scratch's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

end Cert.KernelIdeal.Hand

end
-- ==== Proof.KI.RunA.lean ====
/-
  The body at the first point: the scratch, found at anything, is loaded (the value is not used) and
  stored whole with zero; the four input blocks are loaded; the scratch is loaded again — it reads the
  zero just stored — and stored with the point's contribution added.  The output block is not touched.
-/
import proofs.«111789_j8203387535487_1_alg».proof.Proof.KI.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body leaves in the scratch at the first point, with the proof that from the six buffers owned whole
    — the inputs at their blocks, the output block at anything, the scratch at anything — the body runs to a
    continuation that is handed the inputs and the output block as they were and the scratch with those pieces written. -/
noncomputable def runA (c : Dev nD) (i : grid0.Coords)
    (arg2 : Memref sig .tc .vmem S512x256 .f32) (harg2 : arg2.IsWhole)
    (arg3 : Memref sig .tc .vmem S512x256 .f32) (harg3 : arg3.IsWhole)
    (arg4 : Memref sig .tc .vmem S512x1 .i32) (harg4 : arg4.IsWhole)
    (arg5 : Memref sig .tc .vmem S1x512 .i32) (harg5 : arg5.IsWhole)
    (arg6 : Memref sig .tc .vmem S1x1 .f32) (harg6 : arg6.IsWhole)
    (arg7 : Memref sig .tc .vmem S1x1 .f32) (harg7 : arg7.IsWhole)
    (hc1 : cond1 i) (hc2 : ¬cond2 i)
    (x0 x1 : Vec F S512x256 .f32) (l0 : Vec F S512x1 .i32) (l1 : Vec F S1x512 .i32) :
    { LS : List (View.Piece (Elt F) S1x1 .f32) //
      ∀ (xi : Vec F S1x1 .f32) (E : Set ℕ) (K : PUnit → sProp 𝕄),
        iprop(owns (c : Thread nD τ) arg2 fullShare x0 ∗ owns (c : Thread nD τ) arg3 fullShare x1
            ∗ owns (c : Thread nD τ) arg4 fullShare l0 ∗ owns (c : Thread nD τ) arg5 fullShare l1
            ∗ owns (c : Thread nD τ) arg6 fullShare xi ∗ (∃ d, owns (c : Thread nD τ) arg7 fullShare d)
            ∗ (iprop(owns (c : Thread nD τ) arg2 fullShare x0 ∗ owns (c : Thread nD τ) arg3 fullShare x1
                ∗ owns (c : Thread nD τ) arg4 fullShare l0 ∗ owns (c : Thread nD τ) arg5 fullShare l1
                ∗ owns (c : Thread nD τ) arg6 fullShare xi
                ∗ (∃ f, arg7.view.loc (c : Thread nD τ) ↦[arg7.view.set]{fullShare} arg7.view.writes (Elt F) f LS)) -∗ K ⟨⟩))
          ⊢ wp frame (wpE (defs₀ (F := F)) Variants.none c none) E (cc0_kernel i arg2 harg2 arg3 harg3 arg4 harg4 arg5 harg5 arg6 harg6 arg7 harg7) K } := by
  refine ⟨?_, fun xi E K => ?run⟩
  case run =>
    simp only [cc0_kernel_eq_skeleton]; unfold cc0_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1
    obtain rfl := harg4.eq_unread hf2; obtain rfl := harg5.eq_unread hf3
    obtain rfl := harg6.eq_unread hf4
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

/-- The unit offsets are zero. -/
theorem hzA : (![0, 0] : Fin 2 → Nat) = fun _ => 0 := funext fun a => by fin_cases a <;> rfl

/-- The first point's two stores cover the scratch. -/
theorem coverA (c : Dev nD) (i : grid0.Coords)
    (arg2 : Memref sig .tc .vmem S512x256 .f32) (harg2 : arg2.IsWhole)
    (arg3 : Memref sig .tc .vmem S512x256 .f32) (harg3 : arg3.IsWhole)
    (arg4 : Memref sig .tc .vmem S512x1 .i32) (harg4 : arg4.IsWhole)
    (arg5 : Memref sig .tc .vmem S1x512 .i32) (harg5 : arg5.IsWhole)
    (arg6 : Memref sig .tc .vmem S1x1 .f32) (harg6 : arg6.IsWhole)
    (arg7 : Memref sig .tc .vmem S1x1 .f32) (harg7 : arg7.IsWhole)
    (hc1 : cond1 i) (hc2 : ¬cond2 i)
    (x0 x1 : Vec F S512x256 .f32) (l0 : Vec F S512x1 .i32) (l1 : Vec F S1x512 .i32) (y : S1x1.Idx) :
    ∃ pc ∈ (runA c i arg2 harg2 arg3 harg3 arg4 harg4 arg5 harg5 arg6 harg6 arg7 harg7 hc1 hc2 x0 x1 l0 l1).1, y ∈ pc.1.set :=
  View.cover_of_tiledL (runA c i arg2 harg2 arg3 harg3 arg4 harg4 arg5 harg5 arg6 harg6 arg7 harg7 hc1 hc2 x0 x1 l0 l1).1 S1x1.size (by sl_kernel_rfl) y

/-- What the first point leaves in the scratch, read back through any view over any earlier contents: the step from the
    zero it has just stored (the load between the two stores reads that zero back). -/
theorem readA (c : Dev nD) (i : grid0.Coords)
    (arg2 : Memref sig .tc .vmem S512x256 .f32) (harg2 : arg2.IsWhole)
    (arg3 : Memref sig .tc .vmem S512x256 .f32) (harg3 : arg3.IsWhole)
    (arg4 : Memref sig .tc .vmem S512x1 .i32) (harg4 : arg4.IsWhole)
    (arg5 : Memref sig .tc .vmem S1x512 .i32) (harg5 : arg5.IsWhole)
    (arg6 : Memref sig .tc .vmem S1x1 .f32) (harg6 : arg6.IsWhole)
    (arg7 : Memref sig .tc .vmem S1x1 .f32) (harg7 : arg7.IsWhole)
    (hc1 : cond1 i) (hc2 : ¬cond2 i)
    (x0 x1 : Vec F S512x256 .f32) (l0 : Vec F S512x1 .i32) (l1 : Vec F S1x512 .i32)
    {sig' : RefSig} {κ' : Kind} {sp' : Space} (v : View sig' κ' sp' S1x1 .f32) (f : v.ty.Contents (Elt F)) :
    v.read (Elt F) (v.writes (Elt F) f (runA c i arg2 harg2 arg3 harg3 arg4 harg4 arg5 harg5 arg6 harg6 arg7 harg7 hc1 hc2 x0 x1 l0 l1).1)
      = step i x0 x1 l0 l1 (k0_pay2 (F := F)) := by
  rw [View.read_writes_eq_canon _ _ _ (coverA c i arg2 harg2 arg3 harg3 arg4 harg4 arg5 harg5 arg6 harg6 arg7 harg7 hc1 hc2 x0 x1 l0 l1)]
  unfold runA
  dsimp only
  sl_unfold_words
  rw [View.canon_cons_unit_zero (S := S1x1) hzA, View.readCov_unit_zero (S := S1x1) _ hzA]
  unfold step
  simp only [View.readAt_eq_ld, harg2.read_unread, harg3.read_unread, harg4.read_unread, harg5.read_unread,
    View.ld_unit_zero (S := S512x256) hzA, View.ld_unit_zero (S := S512x1) hzA, View.ld_unit_zero (S := S1x512) hzA, View.ld_unit_zero (S := S1x1) hzA]

end Cert.KernelIdeal.Hand

end
-- ==== Proof.KI.RunB.lean ====
/-
  The body at a point that is neither the first nor the last: the scratch is found at what the point
  before left, the four input blocks are loaded, and the scratch is stored once, with the point's
  contribution added to what it held.  The output block is not touched.
-/
import proofs.«111789_j8203387535487_1_alg».proof.Proof.KI.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body leaves in the scratch at a middle point, with the proof that from the six buffers owned whole
    — the inputs at their blocks, the output block at anything, the scratch at `xs` — the body runs to a continuation
    that is handed the inputs and the output block as they were and the scratch with those pieces written. -/
noncomputable def runB (c : Dev nD) (i : grid0.Coords)
    (arg2 : Memref sig .tc .vmem S512x256 .f32) (harg2 : arg2.IsWhole)
    (arg3 : Memref sig .tc .vmem S512x256 .f32) (harg3 : arg3.IsWhole)
    (arg4 : Memref sig .tc .vmem S512x1 .i32) (harg4 : arg4.IsWhole)
    (arg5 : Memref sig .tc .vmem S1x512 .i32) (harg5 : arg5.IsWhole)
    (arg6 : Memref sig .tc .vmem S1x1 .f32) (harg6 : arg6.IsWhole)
    (arg7 : Memref sig .tc .vmem S1x1 .f32) (harg7 : arg7.IsWhole)
    (hc1 : ¬cond1 i) (hc2 : ¬cond2 i)
    (x0 x1 : Vec F S512x256 .f32) (l0 : Vec F S512x1 .i32) (l1 : Vec F S1x512 .i32) (xs : Vec F S1x1 .f32) :
    { LS : List (View.Piece (Elt F) S1x1 .f32) //
      ∀ (xi : Vec F S1x1 .f32) (E : Set ℕ) (K : PUnit → sProp 𝕄),
        iprop(owns (c : Thread nD τ) arg2 fullShare x0 ∗ owns (c : Thread nD τ) arg3 fullShare x1
            ∗ owns (c : Thread nD τ) arg4 fullShare l0 ∗ owns (c : Thread nD τ) arg5 fullShare l1
            ∗ owns (c : Thread nD τ) arg6 fullShare xi ∗ owns (c : Thread nD τ) arg7 fullShare xs
            ∗ (iprop(owns (c : Thread nD τ) arg2 fullShare x0 ∗ owns (c : Thread nD τ) arg3 fullShare x1
                ∗ owns (c : Thread nD τ) arg4 fullShare l0 ∗ owns (c : Thread nD τ) arg5 fullShare l1
                ∗ owns (c : Thread nD τ) arg6 fullShare xi
                ∗ (∃ f, arg7.view.loc (c : Thread nD τ) ↦[arg7.view.set]{fullShare} arg7.view.writes (Elt F) f LS)) -∗ K ⟨⟩))
          ⊢ wp frame (wpE (defs₀ (F := F)) Variants.none c none) E (cc0_kernel i arg2 harg2 arg3 harg3 arg4 harg4 arg5 harg5 arg6 harg6 arg7 harg7) K } := by
  refine ⟨?_, fun xi E K => ?run⟩
  case run =>
    simp only [cc0_kernel_eq_skeleton]; unfold cc0_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1
    obtain rfl := harg4.eq_unread hf2; obtain rfl := harg5.eq_unread hf3
    obtain rfl := harg6.eq_unread hf4; obtain rfl := harg7.eq_unread hfs
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

/-- The unit offsets are zero. -/
theorem hzB : (![0, 0] : Fin 2 → Nat) = fun _ => 0 := funext fun a => by fin_cases a <;> rfl

/-- The middle point's one store covers the scratch. -/
theorem coverB (c : Dev nD) (i : grid0.Coords)
    (arg2 : Memref sig .tc .vmem S512x256 .f32) (harg2 : arg2.IsWhole)
    (arg3 : Memref sig .tc .vmem S512x256 .f32) (harg3 : arg3.IsWhole)
    (arg4 : Memref sig .tc .vmem S512x1 .i32) (harg4 : arg4.IsWhole)
    (arg5 : Memref sig .tc .vmem S1x512 .i32) (harg5 : arg5.IsWhole)
    (arg6 : Memref sig .tc .vmem S1x1 .f32) (harg6 : arg6.IsWhole)
    (arg7 : Memref sig .tc .vmem S1x1 .f32) (harg7 : arg7.IsWhole)
    (hc1 : ¬cond1 i) (hc2 : ¬cond2 i)
    (x0 x1 : Vec F S512x256 .f32) (l0 : Vec F S512x1 .i32) (l1 : Vec F S1x512 .i32) (xs : Vec F S1x1 .f32) (y : S1x1.Idx) :
    ∃ pc ∈ (runB c i arg2 harg2 arg3 harg3 arg4 harg4 arg5 harg5 arg6 harg6 arg7 harg7 hc1 hc2 x0 x1 l0 l1 xs).1, y ∈ pc.1.set :=
  View.cover_of_tiledL (runB c i arg2 harg2 arg3 harg3 arg4 harg4 arg5 harg5 arg6 harg6 arg7 harg7 hc1 hc2 x0 x1 l0 l1 xs).1 S1x1.size (by sl_kernel_rfl) y

/-- What a middle point leaves in the scratch, read back through any view over any earlier contents: the step from `xs`. -/
theorem readB (c : Dev nD) (i : grid0.Coords)
    (arg2 : Memref sig .tc .vmem S512x256 .f32) (harg2 : arg2.IsWhole)
    (arg3 : Memref sig .tc .vmem S512x256 .f32) (harg3 : arg3.IsWhole)
    (arg4 : Memref sig .tc .vmem S512x1 .i32) (harg4 : arg4.IsWhole)
    (arg5 : Memref sig .tc .vmem S1x512 .i32) (harg5 : arg5.IsWhole)
    (arg6 : Memref sig .tc .vmem S1x1 .f32) (harg6 : arg6.IsWhole)
    (arg7 : Memref sig .tc .vmem S1x1 .f32) (harg7 : arg7.IsWhole)
    (hc1 : ¬cond1 i) (hc2 : ¬cond2 i)
    (x0 x1 : Vec F S512x256 .f32) (l0 : Vec F S512x1 .i32) (l1 : Vec F S1x512 .i32) (xs : Vec F S1x1 .f32)
    {sig' : RefSig} {κ' : Kind} {sp' : Space} (v : View sig' κ' sp' S1x1 .f32) (f : v.ty.Contents (Elt F)) :
    v.read (Elt F) (v.writes (Elt F) f (runB c i arg2 harg2 arg3 harg3 arg4 harg4 arg5 harg5 arg6 harg6 arg7 harg7 hc1 hc2 x0 x1 l0 l1 xs).1)
      = step i x0 x1 l0 l1 xs := by
  rw [View.read_writes_eq_canon _ _ _ (coverB c i arg2 harg2 arg3 harg3 arg4 harg4 arg5 harg5 arg6 harg6 arg7 harg7 hc1 hc2 x0 x1 l0 l1 xs)]
  unfold runB
  dsimp only
  sl_unfold_words
  rw [View.canon_unit_zero hzB]
  unfold step
  simp only [View.readAt_eq_ld, harg2.read_unread, harg3.read_unread, harg4.read_unread, harg5.read_unread, harg7.read_unread,
    View.ld_unit_zero (S := S512x256) hzB, View.ld_unit_zero (S := S512x1) hzB, View.ld_unit_zero (S := S1x512) hzB, View.ld_unit_zero (S := S1x1) hzB]

end Cert.KernelIdeal.Hand

end
-- ==== Proof.KI.RunC.lean ====
/-
  The body at the last point: as at a middle point the scratch, found at what the point before left,
  is stored with the point's contribution added; then the scratch is loaded once more and its
  contents are stored, whole, into the output block (which is loaded first; that value is not used).
-/
import proofs.«111789_j8203387535487_1_alg».proof.Proof.KI.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body leaves in the output block and in the scratch at the last point, with the proof that from the
    six buffers owned whole — the inputs at their blocks, the output block at anything, the scratch at `xs` — the body
    runs to a continuation that is handed the inputs as they were and the output block and the scratch with those
    pieces written. -/
noncomputable def runC (c : Dev nD) (i : grid0.Coords)
    (arg2 : Memref sig .tc .vmem S512x256 .f32) (harg2 : arg2.IsWhole)
    (arg3 : Memref sig .tc .vmem S512x256 .f32) (harg3 : arg3.IsWhole)
    (arg4 : Memref sig .tc .vmem S512x1 .i32) (harg4 : arg4.IsWhole)
    (arg5 : Memref sig .tc .vmem S1x512 .i32) (harg5 : arg5.IsWhole)
    (arg6 : Memref sig .tc .vmem S1x1 .f32) (harg6 : arg6.IsWhole)
    (arg7 : Memref sig .tc .vmem S1x1 .f32) (harg7 : arg7.IsWhole)
    (hc1 : ¬cond1 i) (hc2 : cond2 i)
    (x0 x1 : Vec F S512x256 .f32) (l0 : Vec F S512x1 .i32) (l1 : Vec F S1x512 .i32) (xs : Vec F S1x1 .f32) :
    Σ' (L4 : List (View.Piece (Elt F) S1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare l0 ∗ owns (c : Thread nD τ) arg5 fullShare l1
            ∗ (∃ d, owns (c : Thread nD τ) arg6 fullShare d) ∗ owns (c : Thread nD τ) arg7 fullShare xs
            ∗ (iprop(owns (c : Thread nD τ) arg2 fullShare x0 ∗ owns (c : Thread nD τ) arg3 fullShare x1
                ∗ owns (c : Thread nD τ) arg4 fullShare l0 ∗ owns (c : Thread nD τ) arg5 fullShare l1
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E (cc0_kernel i arg2 harg2 arg3 harg3 arg4 harg4 arg5 harg5 arg6 harg6 arg7 harg7) K } := by
  refine ⟨?_, ?_, fun E K => ?run⟩
  case run =>
    simp only [cc0_kernel_eq_skeleton]; unfold cc0_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1
    obtain rfl := harg4.eq_unread hf2; obtain rfl := harg5.eq_unread hf3
    obtain rfl := harg7.eq_unread hfs
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

/-- The unit offsets are zero. -/
theorem hzC : (![0, 0] : Fin 2 → Nat) = fun _ => 0 := funext fun a => by fin_cases a <;> rfl

/-- The last point's store into the scratch covers it; -/
theorem coverCS (c : Dev nD) (i : grid0.Coords)
    (arg2 : Memref sig .tc .vmem S512x256 .f32) (harg2 : arg2.IsWhole)
    (arg3 : Memref sig .tc .vmem S512x256 .f32) (harg3 : arg3.IsWhole)
    (arg4 : Memref sig .tc .vmem S512x1 .i32) (harg4 : arg4.IsWhole)
    (arg5 : Memref sig .tc .vmem S1x512 .i32) (harg5 : arg5.IsWhole)
    (arg6 : Memref sig .tc .vmem S1x1 .f32) (harg6 : arg6.IsWhole)
    (arg7 : Memref sig .tc .vmem S1x1 .f32) (harg7 : arg7.IsWhole)
    (hc1 : ¬cond1 i) (hc2 : cond2 i)
    (x0 x1 : Vec F S512x256 .f32) (l0 : Vec F S512x1 .i32) (l1 : Vec F S1x512 .i32) (xs : Vec F S1x1 .f32) (y : S1x1.Idx) :
    ∃ pc ∈ (runC c i arg2 harg2 arg3 harg3 arg4 harg4 arg5 harg5 arg6 harg6 arg7 harg7 hc1 hc2 x0 x1 l0 l1 xs).2.1, y ∈ pc.1.set :=
  View.cover_of_tiledL (runC c i arg2 harg2 arg3 harg3 arg4 harg4 arg5 harg5 arg6 harg6 arg7 harg7 hc1 hc2 x0 x1 l0 l1 xs).2.1 S1x1.size (by sl_kernel_rfl) y

/-- and so does its store into the output block. -/
theorem coverC4 (c : Dev nD) (i : grid0.Coords)
    (arg2 : Memref sig .tc .vmem S512x256 .f32) (harg2 : arg2.IsWhole)
    (arg3 : Memref sig .tc .vmem S512x256 .f32) (harg3 : arg3.IsWhole)
    (arg4 : Memref sig .tc .vmem S512x1 .i32) (harg4 : arg4.IsWhole)
    (arg5 : Memref sig .tc .vmem S1x512 .i32) (harg5 : arg5.IsWhole)
    (arg6 : Memref sig .tc .vmem S1x1 .f32) (harg6 : arg6.IsWhole)
    (arg7 : Memref sig .tc .vmem S1x1 .f32) (harg7 : arg7.IsWhole)
    (hc1 : ¬cond1 i) (hc2 : cond2 i)
    (x0 x1 : Vec F S512x256 .f32) (l0 : Vec F S512x1 .i32) (l1 : Vec F S1x512 .i32) (xs : Vec F S1x1 .f32) (y : S1x1.Idx) :
    ∃ pc ∈ (runC c i arg2 harg2 arg3 harg3 arg4 harg4 arg5 harg5 arg6 harg6 arg7 harg7 hc1 hc2 x0 x1 l0 l1 xs).1, y ∈ pc.1.set :=
  View.cover_of_tiledL (runC c i arg2 harg2 arg3 harg3 arg4 harg4 arg5 harg5 arg6 harg6 arg7 harg7 hc1 hc2 x0 x1 l0 l1 xs).1 S1x1.size (by sl_kernel_rfl) y

/-- What the last point leaves in the scratch, read back through any view over any earlier contents: the step from `xs`. -/
theorem readCS (c : Dev nD) (i : grid0.Coords)
    (arg2 : Memref sig .tc .vmem S512x256 .f32) (harg2 : arg2.IsWhole)
    (arg3 : Memref sig .tc .vmem S512x256 .f32) (harg3 : arg3.IsWhole)
    (arg4 : Memref sig .tc .vmem S512x1 .i32) (harg4 : arg4.IsWhole)
    (arg5 : Memref sig .tc .vmem S1x512 .i32) (harg5 : arg5.IsWhole)
    (arg6 : Memref sig .tc .vmem S1x1 .f32) (harg6 : arg6.IsWhole)
    (arg7 : Memref sig .tc .vmem S1x1 .f32) (harg7 : arg7.IsWhole)
    (hc1 : ¬cond1 i) (hc2 : cond2 i)
    (x0 x1 : Vec F S512x256 .f32) (l0 : Vec F S512x1 .i32) (l1 : Vec F S1x512 .i32) (xs : Vec F S1x1 .f32)
    {sig' : RefSig} {κ' : Kind} {sp' : Space} (v : View sig' κ' sp' S1x1 .f32) (f : v.ty.Contents (Elt F)) :
    v.read (Elt F) (v.writes (Elt F) f (runC c i arg2 harg2 arg3 harg3 arg4 harg4 arg5 harg5 arg6 harg6 arg7 harg7 hc1 hc2 x0 x1 l0 l1 xs).2.1)
      = step i x0 x1 l0 l1 xs := by
  rw [View.read_writes_eq_canon _ _ _ (coverCS c i arg2 harg2 arg3 harg3 arg4 harg4 arg5 harg5 arg6 harg6 arg7 harg7 hc1 hc2 x0 x1 l0 l1 xs)]
  unfold runC
  dsimp only
  sl_unfold_words
  rw [View.canon_unit_zero hzC]
  unfold step
  simp only [View.readAt_eq_ld, harg2.read_unread, harg3.read_unread, harg4.read_unread, harg5.read_unread, harg7.read_unread,
    View.ld_unit_zero (S := S512x256) hzC, View.ld_unit_zero (S := S512x1) hzC, View.ld_unit_zero (S := S1x512) hzC, View.ld_unit_zero (S := S1x1) hzC]

/-- What the last point leaves in the output block is the same value: the scratch, loaded after its store, reads the
    stored step back, and that is what is stored into the output block. -/
theorem readC4 (c : Dev nD) (i : grid0.Coords)
    (arg2 : Memref sig .tc .vmem S512x256 .f32) (harg2 : arg2.IsWhole)
    (arg3 : Memref sig .tc .vmem S512x256 .f32) (harg3 : arg3.IsWhole)
    (arg4 : Memref sig .tc .vmem S512x1 .i32) (harg4 : arg4.IsWhole)
    (arg5 : Memref sig .tc .vmem S1x512 .i32) (harg5 : arg5.IsWhole)
    (arg6 : Memref sig .tc .vmem S1x1 .f32) (harg6 : arg6.IsWhole)
    (arg7 : Memref sig .tc .vmem S1x1 .f32) (harg7 : arg7.IsWhole)
    (hc1 : ¬cond1 i) (hc2 : cond2 i)
    (x0 x1 : Vec F S512x256 .f32) (l0 : Vec F S512x1 .i32) (l1 : Vec F S1x512 .i32) (xs : Vec F S1x1 .f32)
    {sig' : RefSig} {κ' : Kind} {sp' : Space} (v : View sig' κ' sp' S1x1 .f32) (f : v.ty.Contents (Elt F)) :
    v.read (Elt F) (v.writes (Elt F) f (runC c i arg2 harg2 arg3 harg3 arg4 harg4 arg5 harg5 arg6 harg6 arg7 harg7 hc1 hc2 x0 x1 l0 l1 xs).1)
      = step i x0 x1 l0 l1 xs := by
  rw [View.read_writes_eq_canon _ _ _ (coverC4 c i arg2 harg2 arg3 harg3 arg4 harg4 arg5 harg5 arg6 harg6 arg7 harg7 hc1 hc2 x0 x1 l0 l1 xs)]
  unfold runC
  dsimp only
  sl_unfold_words
  rw [View.canon_unit_zero hzC, View.readCov_unit_zero (S := S1x1) _ hzC]
  unfold step
  simp only [View.readAt_eq_ld, harg2.read_unread, harg3.read_unread, harg4.read_unread, harg5.read_unread, harg7.read_unread,
    View.ld_unit_zero (S := S512x256) hzC, View.ld_unit_zero (S := S512x1) hzC, View.ld_unit_zero (S := S1x512) hzC, View.ld_unit_zero (S := S1x1) hzC]

end Cert.KernelIdeal.Hand

end
-- ==== Proof.KI.Body.lean ====
/-
  The body obligation of the kernel's region.  At each of the 64 grid points the body is in one of three
  cases — the first point (the scratch is zeroed, then stepped), a middle point (the scratch is stepped
  from what the point before left), the last point (stepped, then copied into the output block) — and in
  each the case's run applies: the input buffers hold their blocks, the scratch comes from the region
  invariant and goes back to it at the step's value, which is what the case's stores read back as.
-/
import proofs.«111789_j8203387535487_1_alg».proof.Proof.KI.RunA
import proofs.«111789_j8203387535487_1_alg».proof.Proof.KI.RunB
import proofs.«111789_j8203387535487_1_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The input windows' buffers before the body -/

/-- Input window 0's current buffer holds its block at every point, fetched there or not: unfetched, the block index has
    not moved and the buffer still holds the block of the point before, which is this point's. -/
theorem before0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq m c 0]; try rfl) t d).trans
    (by unfold Dat.fetched Dat.blockOf iblk; rw [A_eq m c 0]; try rfl)

/-- Input window 1's current buffer holds its block at every point, fetched there or not: unfetched, the block index has
    not moved and the buffer still holds the block of the point before, which is this point's. -/
theorem before1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq m c 1]; try rfl) t d).trans
    (by unfold Dat.fetched Dat.blockOf iblk; rw [A_eq m c 1]; try rfl)

/-- Input window 2's current buffer holds its block at every point, fetched there or not: unfetched, the block index has
    not moved and the buffer still holds the block of the point before, which is this point's. -/
theorem before2 (c : Dev nD) (t : Fin cfg0.N) (d) : (dats m 0 c).before 2 t d = iblk m c 2 t :=
  ((dats m 0 c).before_in_eq_fetched 2 rfl (fun _ => rfl) (fun _ _ _ => rfl)
      (fun t => by rw [after2]; unfold Dat.blockOf iblk; rw [A_eq m c 2]; try rfl) t d).trans
    (by unfold Dat.fetched Dat.blockOf iblk; rw [A_eq m c 2]; try rfl)

/-- Input window 3's current buffer holds its block at every point, fetched there or not: unfetched, the block index has
    not moved and the buffer still holds the block of the point before, which is this point's. -/
theorem before3 (c : Dev nD) (t : Fin cfg0.N) (d) : (dats m 0 c).before 3 t d = iblk m c 3 t :=
  ((dats m 0 c).before_in_eq_fetched 3 rfl (fun _ => rfl) (fun _ _ _ => rfl)
      (fun t => by rw [after3]; unfold Dat.blockOf iblk; rw [A_eq m c 3]; try rfl) t d).trans
    (by unfold Dat.fetched Dat.blockOf iblk; rw [A_eq m c 3]; try rfl)

/-! ## The body obligation, at a generic point -/

/-- What the body is called with at point `t`: the invariant, the core's debt, and each window's current buffer. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point.  The inputs' buffers hold their blocks; the closed forms of the two conditions say which of
    the three cases the point is in; the invariant hands the body the scratch — at anything at the first point, at what
    the point before left afterwards — and takes it back at the step from there, which is what the case's stores read
    back as; off the last point the output block is idle and is handed back as found, at the last point it is left at
    the scratch's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  have hN : t.val < 64 := lt_of_lt_of_eq t.isLt (show cfg0.N = 64 from N_0)
  by_cases h0 : t.val = 0
  · have hc1 : cond1 (grid0.coords t) := (hcond1 t).mpr h0
    have hc2 : ¬cond2 (grid0.coords t) := fun h => by have := (hcond2 t).mp h; omega
    rw [Dat.leavesExact_idle (dats m 0 c) 4 t (idle4 t hc2) (noFlush4 t hc2)]
    rw [scrAt_zero m c t h0]
    rw [PhiS_castSucc m c t, PhiS_zero m c _ _ h0, PhiA_eq]
    iintro ⟨⟨HS, Hg⟩, Ho, ⟨%d0, H0⟩, ⟨%d1, H1⟩, ⟨%d2, H2⟩, ⟨%d3, H3⟩, ⟨%d4, H4⟩⟩
    iapply ((runA c (grid0.coords t) (ms0 t) (hs0 t) (ms1 t) (hs1 t) (ms2 t) (hs2 t) (ms3 t) (hs3 t) (ms4 t) (hs4 t) scM (Memref.isWhole_whole _) hc1 hc2 (iblk m c 0 t) (iblk m c 1 t) (iblk m c 2 t) (iblk m c 3 t)).2 _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%es, HS⟩⟩
    isplitl [HS Hg]
    · isplitl [HS]
      · unfold owns; iexists _; isplitr
        swap; · iexact HS
        ipureintro
        exact readA c (grid0.coords t) (ms0 t) (hs0 t) (ms1 t) (hs1 t) (ms2 t) (hs2 t) (ms3 t) (hs3 t) (ms4 t) (hs4 t) scM (Memref.isWhole_whole _) hc1 hc2 (iblk m c 0 t) (iblk m c 1 t) (iblk m c 2 t) (iblk m c 3 t) scM.view es
      iexact Hg
    isplitl [Ho]; · iexact Ho
    isplitl [H0]; · iexact H0
    isplitl [H1]; · iexact H1
    isplitl [H2]; · iexact H2
    isplitl [H3]; · iexact H3
    iexists _; iexact H4
  · have hc1 : ¬cond1 (grid0.coords t) := fun h => h0 ((hcond1 t).mp h)
    rw [scrAt_pos m c t h0]
    rw [PhiS_castSucc m c t, PhiS_pos m c _ _ h0]
    by_cases h63 : t.val = 63
    · have hc2 : cond2 (grid0.coords t) := (hcond2 t).mpr h63
      rw [show (dats m 0 c).leavesExact 4 t = owns (c : Thread nD τ) (ms4 t) fullShare ((dats m 0 c).after 4 t) from by
        unfold Dat.leavesExact; rw [live4 t hc2], after4, scrAt_pos m c t h0]
      iintro ⟨⟨HS, Hg⟩, Ho, ⟨%d0, H0⟩, ⟨%d1, H1⟩, ⟨%d2, H2⟩, ⟨%d3, H3⟩, ⟨%d4, H4⟩⟩
      iapply ((runC c (grid0.coords t) (ms0 t) (hs0 t) (ms1 t) (hs1 t) (ms2 t) (hs2 t) (ms3 t) (hs3 t) (ms4 t) (hs4 t) scM (Memref.isWhole_whole _) hc1 hc2 (iblk m c 0 t) (iblk m c 1 t) (iblk m c 2 t) (iblk m c 3 t) (scrAt m c (t.val - 1) (Nat.lt_of_le_of_lt (Nat.sub_le _ _) t.isLt))).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hg]
      · isplitl [HS]
        · unfold owns; iexists _; isplitr
          swap; · iexact HS
          ipureintro
          exact readCS c (grid0.coords t) (ms0 t) (hs0 t) (ms1 t) (hs1 t) (ms2 t) (hs2 t) (ms3 t) (hs3 t) (ms4 t) (hs4 t) scM (Memref.isWhole_whole _) hc1 hc2 (iblk m c 0 t) (iblk m c 1 t) (iblk m c 2 t) (iblk m c 3 t) (scrAt m c (t.val - 1) (Nat.lt_of_le_of_lt (Nat.sub_le _ _) t.isLt)) scM.view es
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro
      exact readC4 c (grid0.coords t) (ms0 t) (hs0 t) (ms1 t) (hs1 t) (ms2 t) (hs2 t) (ms3 t) (hs3 t) (ms4 t) (hs4 t) scM (Memref.isWhole_whole _) hc1 hc2 (iblk m c 0 t) (iblk m c 1 t) (iblk m c 2 t) (iblk m c 3 t) (scrAt m c (t.val - 1) (Nat.lt_of_le_of_lt (Nat.sub_le _ _) t.isLt)) (ms4 t).view e4
    · have hc2 : ¬cond2 (grid0.coords t) := fun h => h63 ((hcond2 t).mp h)
      rw [Dat.leavesExact_idle (dats m 0 c) 4 t (idle4 t hc2) (noFlush4 t hc2)]
      iintro ⟨⟨HS, Hg⟩, Ho, ⟨%d0, H0⟩, ⟨%d1, H1⟩, ⟨%d2, H2⟩, ⟨%d3, H3⟩, ⟨%d4, H4⟩⟩
      iapply ((runB c (grid0.coords t) (ms0 t) (hs0 t) (ms1 t) (hs1 t) (ms2 t) (hs2 t) (ms3 t) (hs3 t) (ms4 t) (hs4 t) scM (Memref.isWhole_whole _) hc1 hc2 (iblk m c 0 t) (iblk m c 1 t) (iblk m c 2 t) (iblk m c 3 t) (scrAt m c (t.val - 1) (Nat.lt_of_le_of_lt (Nat.sub_le _ _) t.isLt))).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hg]
      · isplitl [HS]
        · unfold owns; iexists _; isplitr
          swap; · iexact HS
          ipureintro
          exact readB c (grid0.coords t) (ms0 t) (hs0 t) (ms1 t) (hs1 t) (ms2 t) (hs2 t) (ms3 t) (hs3 t) (ms4 t) (hs4 t) scM (Memref.isWhole_whole _) hc1 hc2 (iblk m c 0 t) (iblk m c 1 t) (iblk m c 2 t) (iblk m c 3 t) (scrAt m c (t.val - 1) (Nat.lt_of_le_of_lt (Nat.sub_le _ _) t.isLt)) scM.view es
        iexact Hg
      isplitl [Ho]; · iexact Ho
      isplitl [H0]; · iexact H0
      isplitl [H1]; · iexact H1
      isplitl [H2]; · iexact H2
      isplitl [H3]; · iexact H3
      iexists _; iexact H4

/-- The body obligation of the pipeline's proof data, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Launch.lean ====
/-
  The launch of the region and the lines around it.

  The kernel's five windows sit on four buffers: the feature matrix is handed to it twice, once for the
  row block i and once for the row block j of the pairwise tile, so the launch cannot give each window its
  array outright.  Both windows only read, so each is given half of the matrix's share, and the halves are
  put together again at the region's exit (`arrays_of_bufs`, `bufs_of_arrays`).  Before the region two
  reshapes lay the label vector out as a column and as a row; after it three lines turn the one-entry
  result into a scalar and scale it.  Those three lines run within all of the core's unscoped buffers at
  the exit contents — the entry contents with the result buffer overwritten by the last point's
  write-back (`Wx`) — and leave the final contents `Wend`.  `run_main` is the run: given the body
  obligation, @main terminates with every window's array at what the proof data compute and every other
  unscoped buffer at `Wend`.
-/
import proofs.«111789_j8203387535487_1_alg».proof.Proof.KI.Data
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The five windows' arrays and the four buffers behind them -/

/-- The distinct buffers behind the windows' arrays: the feature matrix (read through two windows), the label
    vector as a column and as a row, and the result. -/
theorem arrImg : Finset.univ.image (Pipeline.arrRef spec0) = [main_arg0, main_v0, main_v1, main_v2].toFinset := by decide

/-- Those buffers conjoined one by one. -/
theorem bigSep_img {M : Type} [URA M] (Φ : Ref sig .tc → sProp M) :
    bigSep (Finset.univ.image (Pipeline.arrRef spec0)) Φ = iprop(Φ main_arg0 ∗ Φ main_v0 ∗ Φ main_v1 ∗ Φ main_v2) :=
  bigSep_eq_bigSepL_of_eq [main_arg0, main_v0, main_v1, main_v2] arrImg (by decide) Φ

/-- The shares the windows hold their arrays at: the feature matrix's two windows a half each, the others whole. -/
theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl

/-- The four distinct buffers behind the five windows' arrays, each whole at the full share, are the proof data's
    arrays at the same contents: the feature matrix's share is halved between the two windows that read it. -/
theorem arrays_of_bufs (c : Dev nD) (Vv : (b : Ref sig .tc) → Buf (Elt F) ((c.tc : Thread nD τ).loc b)) :
    (Pipeline.arrBufs (Ix := Unit) (Name := ℕ) (U := UR sig nD τ) (Lvl := ℕ) spec0 c Vv : sProp 𝕄)
      ⊢ (dats m 0 c).arrays (fun w => Vv (Pipeline.arrRef spec0 w)) := by
  unfold Pipeline.arrBufs Dat.arrays
  rw [bigSep_img, bigSep_W0]
  simp only [share0, share1, share2, share3, share4, View.set_whole]
  iintro ⟨Ha, H0, H1, H2⟩
  ihave Hs := (pointsTo_share (PosShare.mem_left_op_right fullShare)).1 $$ Ha
  icases Hs with ⟨HL, HR⟩
  isplitl [HL]; · iexact HL
  isplitl [HR]; · iexact HR
  isplitl [H0]; · iexact H0
  isplitl [H1]; · iexact H1
  iexact H2

/-- And back: the two halves, at the same contents, make the whole again. -/
theorem bufs_of_arrays (c : Dev nD) (Vv : (b : Ref sig .tc) → Buf (Elt F) ((c.tc : Thread nD τ).loc b)) :
    (dats m 0 c).arrays (fun w => Vv (Pipeline.arrRef spec0 w))
      ⊢ (Pipeline.arrBufs (Ix := Unit) (Name := ℕ) (U := UR sig nD τ) (Lvl := ℕ) spec0 c Vv : sProp 𝕄) := by
  unfold Pipeline.arrBufs Dat.arrays
  rw [bigSep_img, bigSep_W0]
  simp only [share0, share1, share2, share3, share4, View.set_whole]
  iintro ⟨HL, HR, H0, H1, H2⟩
  isplitl [HL HR]
  · iapply (pointsTo_share (PosShare.mem_left_op_right fullShare)).2
    isplitl [HL]; · iexact HL
    iexact HR
  isplitl [H0]; · iexact H0
  isplitl [H1]; · iexact H1
  iexact H2

/-! ## The buffers at the region's exit and after the lines that follow -/

/-- The result array after the run: its entry contents overwritten by what the last point wrote back. -/
def outArr (c : Dev nD) : Buf (Elt F) ((c.tc : Thread nD τ).loc main_v2) := (dats m 0 c).arrAt 4 cfg0.N

/-- Core `c`'s buffer contents at the region's exit: as at its entry, the result buffer at what the last point wrote back. -/
def Wx (c : Dev nD) : Valuation τ sig (Elt F) := Function.update (V0 m c) (Proc.devRef .tc main_v2) (outArr m c)

/-- The same after the three host lines that follow the region. -/
abbrev Wend (c : Dev nD) : Valuation τ sig (Elt F) := StableHlo.after (List.flatten [hostOps1]) (Wx m c)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The exit contents differ from the entry contents at the result buffer only. -/
theorem Wx_of_ne (c : Dev nD) (b : Ref sig .tc) (hb : b ≠ main_v2) : Wx m c (Proc.devRef .tc b) = V m c b := by
  unfold Wx; rw [Function.update_of_ne (StableHlo.devRef_ne_of_ne hb)]
theorem Wx_out (c : Dev nD) : Wx m c (Proc.devRef .tc main_v2) = outArr m c := by
  unfold Wx; exact Function.update_self _ _ _

/-- At the region's exit every window's array holds the exit contents of the buffer behind it: an input array is
    never written, and the result array is the one buffer the exit contents differ at. -/
theorem arrAt_exit (c : Dev nD) : ∀ w : Fin cfg0.W,
    (dats m 0 c).arrAt w cfg0.N = Wx m c (Proc.devRef .tc (Pipeline.arrRef spec0 w)) := by
  intro w
  fin_cases w
  · exact ((dats m 0 c).arrAt_in 0 rfl _).trans (Wx_of_ne m c main_arg0 (by decide)).symm
  · exact ((dats m 0 c).arrAt_in 1 rfl _).trans (Wx_of_ne m c main_arg0 (by decide)).symm
  · exact ((dats m 0 c).arrAt_in 2 rfl _).trans (Wx_of_ne m c main_v0 (by decide)).symm
  · exact ((dats m 0 c).arrAt_in 3 rfl _).trans (Wx_of_ne m c main_v1 (by decide)).symm
  · exact (Wx_out m c).symm

/-- The three lines after the region write the scalar result's three buffers and nothing else. -/
theorem hostOps1_writes : (hostOps1 : List (HloOp τ sig (Elt F))).Forall fun op =>
    op.writes ⊆ (([main_v3, main_cst, main_v4] : List (Ref sig .tc)).map (Proc.devRef (τ := τ) .tc)).toFinset := by
  simp only [hostOps1, List.Forall, StableHlo.nullary_writes, StableHlo.binary_writes, StableHlo.reshape_writes,
    List.map_cons, List.map_nil, List.toFinset_cons, List.toFinset_nil, Finset.singleton_subset_iff, Finset.mem_insert,
    Finset.mem_singleton, true_or, or_true, and_self]

/-- So a buffer other than those three holds after the lines what it held at the region's exit. -/
theorem Wend_of_not_written (c : Dev nD) (r : Ref sig .tc) (hr : r ∉ ([main_v3, main_cst, main_v4] : List (Ref sig .tc))) :
    Wend m c (Proc.devRef .tc r) = Wx m c (Proc.devRef .tc r) := by
  unfold Wend
  simp only [List.flatten_cons, List.flatten_nil, List.append_nil]
  exact StableHlo.after_of_writes_sub _ _ hostOps1_writes hr

theorem tail_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)

theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- The buffers that bypass the region are not the result buffer. -/
theorem ne_out_of_rest {b : Ref sig .tc} (hb : b ∈ Pipeline.restRefs sig spec0) : b ≠ main_v2 := fun e =>
  (Finset.mem_sdiff.mp hb).2 (e ▸ Finset.mem_image.mpr ⟨4, Finset.mem_univ _, rfl⟩)

/-- AT THE EXIT: the windows' arrays at their final contents and the bypassing buffers at their entry contents are
    the core's unscoped buffers at the exit contents. -/
theorem exit_bufs (c : Dev nD) :
    iprop((dats m 0 c).arrays ((dats m 0 c).arrAt · cfg0.N)
        ∗ Pipeline.unscopedRest (Ix := Unit) (Name := ℕ) (U := UR sig nD τ) (Lvl := ℕ) spec0 c (V m c))
      ⊢ (StableHlo.held (c.tc : Thread nD τ) (Pipeline.ucRefs τ sig) (Wx m c) : sProp 𝕄) := by
  rw [show ((dats m 0 c).arrAt · cfg0.N) = fun w => (fun b : Ref sig .tc => Wx m c (Proc.devRef .tc b)) (Pipeline.arrRef spec0 w)
      from funext (arrAt_exit m c),
    ← Pipeline.unscopedBufs_held (Ix := Unit) (Name := ℕ) (U := UR sig nD τ) (Lvl := ℕ) c (Wx m c),
    Pipeline.unscopedBufs_split₀ cfgs (0 : Fin 1) winFacts₀0.arr_unscoped c (fun b => Wx m c (Proc.devRef .tc b))]
  refine sep_mono (bufs_of_arrays m c (fun b => Wx m c (Proc.devRef .tc b))) (Entails.of_eq ?_)
  unfold Pipeline.unscopedRest
  exact bigSep_congr fun b hb => by dsimp only; rw [Wx_of_ne m c b (ne_out_of_rest hb)]

/-- AFTER THE LINES: the core's unscoped buffers at the final contents are the windows' arrays, still at their
    exit contents (the lines write none of them), and the bypassing buffers at the final contents. -/
theorem end_bufs (c : Dev nD) :
    (StableHlo.held (c.tc : Thread nD τ) (Pipeline.ucRefs τ sig) (Wend m c) : sProp 𝕄)
      ⊢ iprop((dats m 0 c).arrays ((dats m 0 c).arrAt · cfg0.N)
        ∗ Pipeline.unscopedRest (Ix := Unit) (Name := ℕ) (U := UR sig nD τ) (Lvl := ℕ) spec0 c (fun b => Wend m c (Proc.devRef .tc b))) := by
  rw [show ((dats m 0 c).arrAt · cfg0.N) = fun w => (fun b : Ref sig .tc => Wend m c (Proc.devRef .tc b)) (Pipeline.arrRef spec0 w)
      from funext fun w => (arrAt_exit m c w).trans (by
        fin_cases w
        · exact (Wend_of_not_written m c main_arg0 (by decide)).symm
        · exact (Wend_of_not_written m c main_arg0 (by decide)).symm
        · exact (Wend_of_not_written m c main_v0 (by decide)).symm
        · exact (Wend_of_not_written m c main_v1 (by decide)).symm
        · exact (Wend_of_not_written m c main_v2 (by decide)).symm),
    ← Pipeline.unscopedBufs_held (Ix := Unit) (Name := ℕ) (U := UR sig nD τ) (Lvl := ℕ) c (Wend m c),
    Pipeline.unscopedBufs_split₀ cfgs (0 : Fin 1) winFacts₀0.arr_unscoped c (fun b => Wend m c (Proc.devRef .tc b))]
  exact sep_mono (arrays_of_bufs m c (fun b => Wend m c (Proc.devRef .tc b))) .rfl

/-! ## The run -/

/-- @main around the region: the two reshapes, the region, the three lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub hostOps0_fresh main_chain

/-- THE LINES AFTER THE REGION: from the boundary, the windows' arrays at their final contents and the bypassing
    buffers at their entry contents, the three lines run within the core's unscoped buffers and hand the arrays back
    as they were and the bypassing buffers at the final contents. -/
theorem tail_run (c : Dev nD) (Q' : PUnit → sProp 𝕄) :
    iprop((iprop((dats m 0 c).arrays ((dats m 0 c).arrAt · cfg0.N)
              ∗ Pipeline.unscopedRestP (Ix := Unit) (Name := ℕ) (U := UR sig nD τ) (Lvl := ℕ) Pipeline.Prefetch.none spec0 c (fun b => Wend m c (Proc.devRef .tc b))) -∗ Q' ⟨⟩)
        ∗ boundary (c.tc : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (Pipeline.defs (fun q => Cfg.toPCfg (Val := Elt F) (cfgs q)) (defs₀ (F := F))) (Variants.lift Variants.none) (c.tc : Thread nD τ) none) Set.univ
          (Pipeline.chain [StableHlo.seq hostOps1]) Q' := by
  rw [Pipeline.unscopedRestP_none, Pipeline.unscopedRestP_none]
  show _ ⊢ wp frame _ Set.univ (Pipeline.chain (([hostOps1] : List (List (HloOp τ sig (Elt F)))).map StableHlo.seq ++ [])) Q'
  iintro ⟨Hk, Hb, Ha, Hz⟩
  iapply (Pipeline.wp_seqs_then (fun q => Cfg.toPCfg (Val := Elt F) (cfgs q)) (defs₀ (F := F)) Variants.none c (Pipeline.ucRefs τ sig) []
    [hostOps1] tail_sub tail_fresh (Wx m c)) $$ [Hb Ha Hz]
  · isplitl [Hb]; · iexact Hb
    iapply (exit_bufs m c)
    isplitl [Ha]; · iexact Ha
    iexact Hz
  iintro Hb
  rw [Pipeline.chain_nil, wp_pure]
  imodintro
  iapply Hk
  icases Hb with ⟨-, H⟩
  iapply (end_bufs m c)
  iexact H

set_option backward.isDefEq.respectTransparency.types false in
/-- THE RUN.  At the compiled mesh, for any values, from any memory with zero counters: given the body obligation,
    every weakly fair execution of @main on the TensorCores terminates, and in every final state each window's array
    holds what the proof data compute for it and every other unscoped buffer what the three lines after the region
    leave in it. The feature matrix is handed to two windows, so the launch is stated from its fields: the buffers
    behind the arrays are dealt to the windows by halving that one array's share. -/
theorem run_main (hbody : ∀ c, BodyObligation (dats (F := F) m 0 c) (defs₀ (F := F)) Variants.none () Set.univ) :
    θ_run defs (onTc (τ := τ) (main (F := F))) (s₀ m ρ)
      (Pipeline.FramePost cfgs (dats m) 0 (fun c b => Wend m c (Proc.devRef .tc b))) := by
  classical
  exact Pipeline.θ_run_region_pf_tail (fun q => Cfg.toPCfg (Val := Elt F) (cfgs q)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (hbody c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_of_bufs m c (V m c))
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (fun b => Wend m c (Proc.devRef .tc b)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => tail_run m c Q')
    (QY := fun c s => ∀ b ∈ Pipeline.restRefs sig spec0, s.mem ((c.tc : Thread nD τ).loc b) = Wend m c (Proc.devRef .tc b))
    (hY := fun c s' => by
      rw [Pipeline.unscopedRestP_none]
      iintro ⟨-, HU, HSI⟩
      unfold Pipeline.unscopedRest
      imodintro
      iapply (pointsTo_read_all (Pipeline.restRefs sig spec0) (fun b => (c.tc : Thread nD τ).loc b) (fun b => Wend m c (Proc.devRef .tc b)) s')
      isplitl [HU] <;> iassumption)
    (hQ := fun s h c => ⟨(h c).1, (h c).2.2⟩)

/-! ## What the run leaves: the arguments unchanged, the result buffer -/

/-- The two reshapes before the region write the label vector's two layouts and nothing else. -/
theorem hostOps0_writes : (hostOps0 : List (HloOp τ sig (Elt F))).Forall fun op =>
    op.writes ⊆ (([main_v0, main_v1] : List (Ref sig .tc)).map (Proc.devRef (τ := τ) .tc)).toFinset := by
  simp only [hostOps0, List.Forall, StableHlo.reshape_writes,
    List.map_cons, List.map_nil, List.toFinset_cons, List.toFinset_nil, Finset.singleton_subset_iff, Finset.mem_insert,
    Finset.mem_singleton, true_or, or_true, and_self]

/-- So a buffer other than those two is found by the region as the launch left it. -/
theorem V_of_not_written (c : Dev nD) (r : Ref sig .tc) (hr : r ∉ ([main_v0, main_v1] : List (Ref sig .tc))) :
    V m c r = m ((c.tc : Thread nD τ).loc r) := by
  show StableHlo.after (List.flatten [hostOps0]) (fun b => m (c, b)) (Proc.devRef .tc r) = _
  simp only [List.flatten_cons, List.flatten_nil, List.append_nil]
  exact StableHlo.after_of_writes_sub _ _ hostOps0_writes hr

/-- A buffer that neither the reshapes, nor the region, nor the lines after it write ends as the launch left it. -/
theorem Wend_kept (c : Dev nD) (r : Ref sig .tc) (h0 : r ∉ ([main_v0, main_v1] : List (Ref sig .tc))) (h2 : r ≠ main_v2)
    (h1 : r ∉ ([main_v3, main_cst, main_v4] : List (Ref sig .tc))) :
    Wend m c (Proc.devRef .tc r) = m ((c.tc : Thread nD τ).loc r) :=
  (Wend_of_not_written m c r h1).trans ((Wx_of_ne m c r h2).trans (V_of_not_written m c r h0))

/-- THE FRAME: given the body obligation, @main terminates, nothing faults, and its three argument arrays end as
    they were launched. The feature matrix is an array of the pipeline that no point writes back; the label vector
    and the unused third argument bypass the region and no host line writes them. -/
theorem frame (hbody : ∀ c, BodyObligation (dats (F := F) m 0 c) (defs₀ (F := F)) Variants.none () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans ((A_eq m c 0).trans (V_of_not_written m c main_arg0 (by decide)))),
     ((h c).2 main_arg1 (Pipeline.mem_restRefs_of main_arg1 rfl (by decide))).trans (Wend_kept m c main_arg1 (by decide) (by decide) (by decide)),
     ((h c).2 main_arg2 (Pipeline.mem_restRefs_of main_arg2 rfl (by decide))).trans (Wend_kept m c main_arg2 (by decide) (by decide) (by decide))⟩)
    (run_main m ρ hbody)

/-- The last point is point 63. -/
theorem last_lt : 63 < cfg0.N := by have : cfg0.N = 64 := N_0; omega

/-- A [1, 1] array has one index. -/
theorem idx11_eq (i j : (⟨2, ![1, 1]⟩ : Shape).Idx) : i = j :=
  funext fun d => Fin.ext (by
    have hi : (i d).val < 1 := by fin_cases d <;> exact (i _).isLt
    have hj : (j d).val < 1 := by fin_cases d <;> exact (j _).isLt
    omega)

/-- THE RESULT ARRAY after the run is what the scratch held after the last point: only that point writes the
    one-entry block back, and the block is the whole array. -/
theorem outArr_eq (c : Dev nD) : outArr m c = scrAt m c 63 last_lt := by
  unfold outArr
  refine (dats m 0 c).arrAt_eq_of_cover 4 (scrAt m c 63 last_lt) (fun t hf => ?_) (fun i => ⟨⟨63, last_lt⟩, by decide +kernel, ?_⟩)
  · have ht : t = ⟨63, last_lt⟩ := Fin.ext (by
      show t.val = 63
      have h1 := (flush0_4 t).mp hf
      have h2 : t.val < 64 := lt_of_lt_of_eq t.isLt N_0
      omega)
    subst ht
    show (cfg0.win 4).cut (cfg0.grid.coords ⟨63, last_lt⟩) ((dats m 0 c).after 4 ⟨63, last_lt⟩) = _
    rw [after4]
    funext y
    rw [View.read_apply]
    show scrAt m c 63 last_lt y = scrAt m c 63 last_lt (((cfg0.win 4).blk ⟨63, last_lt⟩).view.emb y)
    exact congrArg (scrAt m c 63 last_lt) (idx11_eq _ _)
  · have h := ((cfg0.win 4).blk ⟨63, last_lt⟩).view.emb_mem_set (ValueIdx.ix2 (0 : Fin 1) (0 : Fin 1))
    exact (idx11_eq _ i) ▸ h

/-- THE RUN WITH ITS RESULT: as `frame`, and the scalar result buffer ends at what the three lines after the region
    compute from the exit contents. -/
theorem run_value (hbody : ∀ c, BodyObligation (dats (F := F) m 0 c) (defs₀ (F := F)) Variants.none () Set.univ) :
    θ_run defs (onTc (τ := τ) (main (F := F))) ⟨m, fun _ => 0, ρ⟩ (fun r => ∀ c : Dev nD,
      r.2.mem ((c.tc : Thread nD τ).loc main_v4) = Wend m c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).2 main_v4 (Pipeline.mem_restRefs_of main_v4 rfl (by decide)),
     ((h c).1 0).trans (((dats m 0 c).arrAt_in 0 rfl _).trans ((A_eq m c 0).trans (V_of_not_written m c main_arg0 (by decide)))),
     ((h c).2 main_arg1 (Pipeline.mem_restRefs_of main_arg1 rfl (by decide))).trans (Wend_kept m c main_arg1 (by decide) (by decide) (by decide)),
     ((h c).2 main_arg2 (Pipeline.mem_restRefs_of main_arg2 rfl (by decide))).trans (Wend_kept m c main_arg2 (by decide) (by decide) (by decide))⟩)
    (run_main m ρ hbody)

/-- The scalar result buffer after the lines: the scale word times the one entry of the result array, which is the
    scratch's entry after the last point. -/
theorem Wend_v4 (c : Dev nD) :
    (Wend m c (Proc.devRef .tc main_v4) : (⟨S_, .f32⟩ : BufTy).Contents (Elt F))
      = mulf (constant S_ .f32 0x39000000#32) (fun _ => scrAt m c 63 last_lt (ValueIdx.ix2 (0 : Fin 1) (0 : Fin 1))) := by
  unfold Wend
  simp only [hostOps1, List.flatten_cons, List.flatten_nil, List.append_nil]
  after_results
  refine congrArg (mulf (constant S_ .f32 0x39000000#32)) (funext fun i => ?_)
  rw [Wx_out, outArr_eq]
  show shapeCast S_ (scrAt m c 63 last_lt) shapeCasts_S1x1_S_ i = _
  unfold shapeCast
  exact congrArg (scrAt m c 63 last_lt) (idx11_eq _ _)

end Cert.KernelIdeal.Hand

end
-- ==== Proof.Spec.lean ====
/-
  The mathematics of the certificate, with no program in sight.

  From a feature matrix x : [4096, 256] over the extended reals and a label vector l : [4096] of
  32-bit integers, both programs compute

      par · Σ_{r < 4095} Σ_{1 ≤ c < 4096}  ( |x_r|² + |x_c|² − 2 · ⟨x_r, x_c⟩ ) · s(l_r, l_c),

  where |x_r|² is the sum of the squares of row r, ⟨x_r, x_c⟩ the inner product of rows r and c,
  s is −1 on equal labels and +1 otherwise, and par = 2⁻¹³.  The reference forms the whole
  4096 × 4096 matrix, cuts away the last row and the first column and sums what is left (`total`).
  The kernel walks an 8 × 8 grid of 512 × 512 tiles in row-major order; on each tile it sums the
  entries whose global row is below 4095 and whose global column is at least 1, a zero standing in
  for every other entry (`tile`), and adds that to one running scalar that starts at zero (`acc`).
  The two agree because a finite sum in a commutative additive monoid may be cut into tiles and
  taken in any order (`acc_total`, proved in the module on sums); no finiteness is involved.
  The float literals are kept as their words: the same word stands on both sides and is never
  evaluated.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A feature matrix [4096, 256] of extended reals, and a label vector [4096] of 32-bit words. -/
abbrev Feat : Type := (⟨2, ![4096, 256]⟩ : Shape).Idx → EReal
abbrev Lab : Type := (⟨1, ![4096]⟩ : Shape).Idx → BitVec 32

/-- The four float constants of the two programs, as the words they are printed with: 2, −1, +1 and 2⁻¹³. -/
def two : EReal := Ideal.ofBits .f32 0x40000000#32
def negOne : EReal := Ideal.ofBits .f32 0xBF800000#32
def posOne : EReal := Ideal.ofBits .f32 0x3F800000#32
def par : EReal := Ideal.ofBits .f32 0x39000000#32

/-- The squared norm of row `r`. -/
def sqn (x : Feat) (r : Fin 4096) : EReal := ∑ k : Fin 256, x (ix2 r k) * x (ix2 r k)

/-- The inner product of rows `r` and `c`. -/
def gram (x : Feat) (r c : Fin 4096) : EReal := ∑ k : Fin 256, x (ix2 r k) * x (ix2 c k)

/-- −1 where the two labels are the same word, +1 where they differ. -/
def sgn (l : Lab) (r c : Fin 4096) : EReal := if l (ix1 r) = l (ix1 c) then negOne else posOne

/-- One entry of the signed squared-distance matrix. -/
def term (x : Feat) (l : Lab) (r c : Fin 4096) : EReal :=
  ((sqn x r + sqn x c) - two * gram x r c) * sgn l r c

/-- Global row (or column) number `512 · i + p` of local coordinate `p` in tile row (or column) `i`. -/
def rowOf (i : Fin 8) (p : Fin 512) : Fin 4096 := ⟨i.val * 512 + p.val, by omega⟩

/-- What the kernel adds at grid point (i, j): the tile's entries in global rows below 4095 and global columns
    from 1 on, zero for the others. -/
def tile (x : Feat) (l : Lab) (i j : Fin 8) : EReal :=
  ∑ p : Fin 512, ∑ q : Fin 512,
    if i.val * 512 + p.val < 4095 ∧ 1 ≤ j.val * 512 + q.val then term x l (rowOf i p) (rowOf j q) else 0

/-- What the reference sums: rows 0 … 4094 against columns 1 … 4095. -/
def total (x : Feat) (l : Lab) : EReal := ∑ r : Fin 4095, ∑ c : Fin 4095, term x l r.castSucc c.succ

/-- The kernel's running scalar before grid point `n` (row-major: point `n` is tile (n / 8, n mod 8)). -/
def acc (x : Feat) (l : Lab) : ℕ → EReal
  | 0 => 0
  | n + 1 => acc x l n + tile x l ⟨n / 8 % 8, Nat.mod_lt _ (by decide)⟩ ⟨n % 8, Nat.mod_lt _ (by decide)⟩

/-- The common result of the two programs. -/
def result (x : Feat) (l : Lab) : EReal := par * total x l

end Cert.Spec

end
-- ==== Proof.RefValue.lean ====
/-
  The reference's result, read entry by entry: the run's composed term of the argument arrays is
  `Cert.Spec.result` of them.
-/
import proofs.«111789_j8203387535487_1_alg».proof.Proof.Spec
import proofs.«111789_j8203387535487_1_alg».proof.Proof.Gen.ReferenceIdeal.Read

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

/-- The feature argument's contents: a [4096, 256] array of extended reals. -/
abbrev X : Type := (⟨S4096x256, .f32⟩ : BufTy).Contents (Elt Ideal)
/-- The label argument's contents: a [4096] array of 32-bit words. -/
abbrev L : Type := (⟨S4096, .i32⟩ : BufTy).Contents (Elt Ideal)

/-! ## Words: the equality test feeding a select -/

/-- A select on the equality test of two words is the `if` on their equality. -/
theorem select_cmpi_eq {α : Type} (a b : BitVec 32) (A B : α) :
    Scalar.select (IntOp.cmpi .eq a b) A B = if a = b then A else B := by
  show (if BitVec.ofBool (a == b) = 1 then A else B) = _
  by_cases h : a = b
  · rw [if_pos h, beq_iff_eq.mpr h]; exact if_pos rfl
  · rw [if_neg h, beq_eq_false_iff_ne.mpr h]; exact if_neg (by decide)

/-! ## The stages of the 4096 × 4096 matrix, read at an entry -/

/-- The row reduction of the squares, at row `r`, is the squared norm of row `r`. -/
theorem v1_eq (x : X) (r : Fin 4096) : Read.val_main_v1 (F := Ideal) x (ix1 r) = Cert.Spec.sqn x r := by
  rw [Read.val_main_v1_apply, Read.val_main_cst_apply]
  simp only [Ideal.ofBits_def, Ideal.ofBits_zero_f32, zero_add, Read.val_main_v0_apply, Ideal.mulf_def]
  unfold Cert.Spec.sqn
  refine Finset.sum_congr rfl fun k _ => ?_
  have h : Read.idx_main_v1 (ix1 r) k = ix2 r k :=
    funext fun a => Fin.ext (by match a with | ⟨0, _⟩ => rfl | ⟨1, _⟩ => rfl)
  rw [h]

/-- The product of the features with their transpose, at entry (r, c), is the inner product of rows r and c. -/
theorem v8_eq (x : X) (r c : Fin 4096) : Read.val_main_v8 (F := Ideal) x (ix2 r c) = Cert.Spec.gram x r c := by
  rw [Read.val_main_v8_apply]
  unfold Cert.Spec.gram
  refine Finset.sum_congr rfl fun k _ => ?_
  rw [Read.val_main_v7_apply]
  have h1 : Read.lidx_main_v8 (ix2 r c) k = ix2 r k :=
    funext fun a => Fin.ext (by match a with | ⟨0, _⟩ => rfl | ⟨1, _⟩ => rfl)
  have h2 : Read.idx_main_v7 (Read.ridx_main_v8 (ix2 r c) k) = ix2 c k :=
    funext fun a => Fin.ext (by match a with | ⟨0, _⟩ => rfl | ⟨1, _⟩ => rfl)
  rw [h1, h2]

/-- The squared-distance matrix at entry (r, c). -/
theorem v11_eq (x : X) (r c : Fin 4096) :
    Read.val_main_v11 (F := Ideal) x (ix2 r c)
      = (Cert.Spec.sqn x r + Cert.Spec.sqn x c) - Cert.Spec.two * Cert.Spec.gram x r c := by
  rw [Read.val_main_v11_apply, Read.val_main_v6_apply, Read.val_main_v4_apply, Read.val_main_v5_apply,
    Read.val_main_v2_apply, Read.val_main_v3_apply, Read.val_main_v10_apply, Read.val_main_v9_apply,
    Read.val_main_cst_0_apply, v8_eq]
  have h1 : Read.idx_main_v2 (Read.idx_main_v4 (ix2 r c)) = ix1 r :=
    funext fun a => Fin.ext (by match a with | ⟨0, _⟩ => rfl)
  have h2 : Read.idx_main_v3 (Read.idx_main_v5 (ix2 r c)) = ix1 c :=
    funext fun a => Fin.ext (by match a with | ⟨0, _⟩ => rfl)
  rw [h1, h2, v1_eq, v1_eq]
  rfl

/-- The sign matrix at entry (r, c): −1 on equal labels, +1 otherwise. -/
theorem v18_eq (l : L) (r c : Fin 4096) : Read.val_main_v18 (F := Ideal) l (ix2 r c) = Cert.Spec.sgn l r c := by
  rw [Read.val_main_v18_apply, Read.val_main_v17_apply, Read.val_main_v16_apply, Read.val_main_v14_apply,
    Read.val_main_v15_apply, Read.val_main_v12_apply, Read.val_main_v13_apply, Read.val_main_call0_v0_apply,
    Read.val_main_call0_v1_apply, Read.val_main_cst_1_apply, Read.val_main_cst_2_apply, select_cmpi_eq]
  have h1 : Read.idx_main_v12 (Read.idx_main_v14 (ix2 r c)) = ix1 r :=
    funext fun a => Fin.ext (by match a with | ⟨0, _⟩ => rfl)
  have h2 : Read.idx_main_v13 (Read.idx_main_v15 (ix2 r c)) = ix1 c :=
    funext fun a => Fin.ext (by match a with | ⟨0, _⟩ => rfl)
  rw [h1, h2]
  rfl

/-! ## The slice, the total and the result -/

/-- The slice [0:4095, 1:4096] reads entry (a, b) of its result at entry (a, b + 1) of its operand. -/
theorem idx19_eq (a b : Fin 4095) : Read.idx_main_v19 (ix2 a b) = ix2 a.castSucc b.succ :=
  funext fun d => Fin.ext (by match d with | ⟨0, _⟩ => rfl | ⟨1, _⟩ => exact Nat.add_comm 1 b.val)

theorem idx20_eq (a b : Fin 4095) : Read.idx_main_v20 (ix2 a b) = ix2 a.castSucc b.succ :=
  funext fun d => Fin.ext (by match d with | ⟨0, _⟩ => rfl | ⟨1, _⟩ => exact Nat.add_comm 1 b.val)

/-- The sliced product at entry (a, b) is the specification's term at row a, column b + 1. -/
theorem v21_eq (x : X) (l : L) (a b : Fin 4095) :
    Read.val_main_v21 (F := Ideal) x l (ix2 a b) = Cert.Spec.term x l a.castSucc b.succ := by
  rw [Read.val_main_v21_apply, Read.val_main_v19_apply, Read.val_main_v20_apply, idx19_eq, idx20_eq, v11_eq, v18_eq]
  rfl

/-- the reference's last stage is the specification's result, at its one index -/
theorem val_eq (x : X) (l : L) :
    Read.val_main_v23 (F := Ideal) x l = fun _ => Cert.Spec.result x l := by
  funext i
  rw [Read.val_main_v23_apply, Read.val_main_cst_4_apply, Read.val_main_v22_apply, Read.val_main_cst_3_apply]
  simp only [Ideal.ofBits_def, Ideal.mulf_def, Ideal.ofBits_zero_f32, zero_add]
  rw [sum_idx2]
  unfold Cert.Spec.result Cert.Spec.total Cert.Spec.par
  refine congrArg (_ * ·) (Finset.sum_congr rfl fun a _ => Finset.sum_congr rfl fun b _ => ?_)
  exact v21_eq x l a b

/-- the reference's run ends with its result buffer at the specification's result of the argument arrays, arguments unchanged -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v23)
          = (fun _ => Cert.Spec.result (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := Ideal)) _ _).mono
    (fun _ h c => ⟨(h c).1.trans ((Read.val_main_v23_eq _ _).trans (val_eq _ _)), (h c).2⟩)
    (Cert.ReferenceIdeal.Value.run (F := Ideal) m ρ)

end Cert.ReferenceIdeal.RefValue

end
-- ==== Proof.KI.Step.lean ====
/-
  The arithmetic of one grid point, read at the one entry of the scratch.

  At grid point (I, J) the body is handed two 512 × 256 blocks of the feature matrix (rows 512 I … and rows
  512 J …), the labels of the first block's rows as a column and those of the second block's rows as a row, and
  the one-entry scratch.  It forms the 512 × 512 tile of squared distances ‖a_p‖² + ‖b_q‖² − 2 ⟨a_p, b_q⟩ (two
  lane sums of squares, laid along the columns and along the rows, and one matrix product into the zero splat),
  the tile of signs (−1 where the two labels are one word, +1 where they differ), masks the product of the two to
  the entries whose global row number 512 I + p is below 4095 and whose global column number 512 J + q is at
  least 1, sums the masked tile along its rows and then down the column that is left, and adds the total to the
  scratch's entry.

  `step_apply` says exactly that of the printed term `step`, over the extended reals, where a format change is
  the identity and a lane sum is a finite sum.  It is proved payload by payload: each layout operation
  (column cast, transpose, the two broadcasts) read at an index given by its coordinates, each lane sum as a sum
  over the dropped coordinate, the matrix product as the sum over the one contraction coordinate, and the mask's
  32-bit integer comparisons as the comparisons of the natural numbers they encode (the numbers stay below
  4096, far from the signed range's end).
-/
import proofs.«111789_j8203387535487_1_alg».proof.Proof.KI.Data
import proofs.«111789_j8203387535487_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open scoped BigOperators

variable {α : Type}

/-! ## Layout operations at an index: the column forms -/

/-- A vector of `a` entries cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` laid along `b` columns reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Sums along one axis of a matrix -/

/-- The sum along each row of an `[a, b]` matrix, read at row `r`. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  show ∑ k : Fin b, src (h.lift (ix1 r) k) = ∑ k : Fin b, src (ix2 r k)
  refine Finset.sum_congr rfl fun k _ => congrArg src (funext fun c => Fin.ext ?_)
  match c with
  | ⟨0, _⟩ => rfl
  | ⟨1, _⟩ => rfl

/-- The sum down each column of an `[a, b]` matrix, read at column `c`. -/
theorem colSum_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (c : Fin b) :
    multiReduction .add [0] ⟨1, ![b]⟩ src 0x00000000#32 h hφ hacc (ix1 c) = ∑ p : Fin a, src (ix2 p c) := by
  refine (Ideal.multiReduction_add_single src 0x00000000#32 h hφ hacc (ix1 c)).trans ?_
  show ∑ p : Fin a, src (h.lift (ix1 c) p) = ∑ p : Fin a, src (ix2 p c)
  refine Finset.sum_congr rfl fun p _ => congrArg src (funext fun d => Fin.ext ?_)
  match d with
  | ⟨0, _⟩ => rfl
  | ⟨1, _⟩ => rfl

/-! ## The mask's integer arithmetic -/

/-- The 32-bit word the kernel computes for global row (or column) number `512 I + p` of a tile is that number. -/
theorem tileCoord_word (I p : ℕ) (hI : I < 8) (hp : p < 512) :
    IntOp.addi (Scalar.muli (BitVec.ofNat 32 I) 512#32) (BitVec.ofNat 32 p) = BitVec.ofNat 32 (I * 512 + p) := by
  unfold IntOp.addi Scalar.muli IntOp.muli
  apply BitVec.eq_of_toNat_eq
  simp only [BitVec.toNat_add, BitVec.toNat_mul, BitVec.toNat_ofNat]
  omega

/-- Such a word, read as a signed integer, is still that number. -/
theorem tileCoord_toInt (I p : ℕ) (hI : I < 8) (hp : p < 512) :
    (BitVec.ofNat 32 (I * 512 + p)).toInt = ((I * 512 + p : ℕ) : ℤ) := by
  rw [BitVec.toInt_eq_toNat_of_lt (by simp only [BitVec.toNat_ofNat]; omega)]
  simp only [BitVec.toNat_ofNat]
  congr 1; omega

/-- Global row number `512 I + p`, as the kernel computes it, is below 4095 as a signed word exactly when it is as a
    natural number. -/
theorem rowMask_iff (I p : ℕ) (hI : I < 8) (hp : p < 512) :
    IntOp.cmpi .slt (IntOp.addi (Scalar.muli (BitVec.ofNat 32 I) 512#32) (BitVec.ofNat 32 p)) 4095#32 = 1#1
      ↔ I * 512 + p < 4095 := by
  rw [tileCoord_word I p hI hp]
  show BitVec.ofBool ((BitVec.ofNat 32 (I * 512 + p)).slt 4095#32) = 1#1 ↔ _
  have h4 : (4095#32 : BitVec 32).toInt = 4095 := by decide
  have hs : (BitVec.ofNat 32 (I * 512 + p)).slt 4095#32 = decide (I * 512 + p < 4095) := by
    rw [BitVec.slt, tileCoord_toInt I p hI hp, h4]
    exact decide_eq_decide.mpr (by omega)
  rw [hs]
  by_cases h : I * 512 + p < 4095 <;> simp [h]

/-- Global column number `512 J + q`, as the kernel computes it, is at least 1 as a signed word exactly when it is as a
    natural number. -/
theorem colMask_iff (J q : ℕ) (hJ : J < 8) (hq : q < 512) :
    IntOp.cmpi .sge (IntOp.addi (Scalar.muli (BitVec.ofNat 32 J) 512#32) (BitVec.ofNat 32 q)) 1#32 = 1#1
      ↔ 1 ≤ J * 512 + q := by
  rw [tileCoord_word J q hJ hq]
  show BitVec.ofBool ((1#32 : BitVec 32).sle (BitVec.ofNat 32 (J * 512 + q))) = 1#1 ↔ _
  have h1 : (1#32 : BitVec 32).toInt = 1 := by decide
  have hs : (1#32 : BitVec 32).sle (BitVec.ofNat 32 (J * 512 + q)) = decide (1 ≤ J * 512 + q) := by
    rw [BitVec.sle, tileCoord_toInt J q hJ hq, h1]
    exact decide_eq_decide.mpr (by omega)
  rw [hs]
  by_cases h : 1 ≤ J * 512 + q <;> simp [h]

/-- The conjunction of two one-bit words is set exactly when both are. -/
theorem andi_eq_one_iff (a b : BitVec 1) : IntOp.andi a b = 1#1 ↔ a = 1#1 ∧ b = 1#1 := by
  unfold IntOp.andi
  rcases BitVec.eq_zero_or_eq_one a with ha | ha <;> rcases BitVec.eq_zero_or_eq_one b with hb | hb <;> subst ha <;> subst hb <;> decide

/-- The equality test of two words is set exactly when they are one word. -/
theorem cmpi_eq_one_iff (a b : BitVec 32) : IntOp.cmpi .eq a b = 1#1 ↔ a = b := by
  show BitVec.ofBool (a == b) = 1#1 ↔ a = b
  by_cases h : a = b
  · subst h; simp
  · have hb : (a == b) = false := beq_eq_false_iff_ne.mpr h
    rw [hb]; simp [h]

/-! ## The tile's matrix product -/

/-- The left operand of the tile's product is read at the result's row … -/
theorem tileDot_lhs_0 (i : S512x512.Idx) (k : dot_S512x256_S256x512_S512x512_1_0_0_1_n_n.contr.Idx) :
    (dot_S512x256_S256x512_S512x512_1_0_0_1_n_n.lhsIdx i k 0).val = (i 0).val := by
  unfold DotDims.lhsIdx
  rw [dif_neg (show ¬(0 : Fin S512x256.rank) ∈ dot_S512x256_S256x512_S512x512_1_0_0_1_n_n.lhsBatch by decide),
    dif_pos (show (0 : Fin S512x256.rank) ∈ dot_S512x256_S256x512_S512x512_1_0_0_1_n_n.lhsNonContracting by decide)]
  rfl
/-- … and at the contraction position; -/
theorem tileDot_lhs_1 (i : S512x512.Idx) (k : dot_S512x256_S256x512_S512x512_1_0_0_1_n_n.contr.Idx) :
    (dot_S512x256_S256x512_S512x512_1_0_0_1_n_n.lhsIdx i k 1).val = (k ⟨0, by decide⟩).val :=
  dot_S512x256_S256x512_S512x512_1_0_0_1_n_n.lhsIdx_val_of_single rfl i k
/-- the right operand at the contraction position … -/
theorem tileDot_rhs_0 (i : S512x512.Idx) (k : dot_S512x256_S256x512_S512x512_1_0_0_1_n_n.contr.Idx) :
    (dot_S512x256_S256x512_S512x512_1_0_0_1_n_n.rhsIdx i k 0).val = (k ⟨0, by decide⟩).val :=
  dot_S512x256_S256x512_S512x512_1_0_0_1_n_n.rhsIdx_val_of_single rfl i k
/-- … and at the result's column. -/
theorem tileDot_rhs_1 (i : S512x512.Idx) (k : dot_S512x256_S256x512_S512x512_1_0_0_1_n_n.contr.Idx) :
    (dot_S512x256_S256x512_S512x512_1_0_0_1_n_n.rhsIdx i k 1).val = (i 1).val := by
  unfold DotDims.rhsIdx
  rw [dif_neg (show ¬(1 : Fin S256x512.rank) ∈ dot_S512x256_S256x512_S512x512_1_0_0_1_n_n.rhsBatch by decide),
    dif_pos (show (1 : Fin S256x512.rank) ∈ dot_S512x256_S256x512_S512x512_1_0_0_1_n_n.rhsNonContracting by decide)]
  rfl

/-- The product of a `[512, 256]` block with a `[256, 512]` one, accumulated into the zero splat, read at `(p, q)`:
    the inner product of row `p` of the first with column `q` of the second. -/
theorem tileDot_apply (x : FVec Ideal S512x256 .bf16) (y : FVec Ideal S256x512 .bf16) (p q : Fin 512) :
    matmul dot_S512x256_S256x512_S512x512_1_0_0_1_n_n none x y (constant S512x512 .f32 0x00000000#32) (ix2 p q)
      = ∑ k : Fin 256, x (ix2 p k) * y (ix2 k q) := by
  show FloatOps.matmul dot_S512x256_S256x512_S512x512_1_0_0_1_n_n none x y (constant S512x512 .f32 0x00000000#32) (ix2 p q) = _
  rw [Ideal.matmul_constant_zero_apply, ← Equiv.sum_comp (contrEquiv1 dot_S512x256_S256x512_S512x512_1_0_0_1_n_n 256 rfl rfl).symm]
  refine Finset.sum_congr rfl fun k _ => ?_
  have hk := contrEquiv1_symm_val dot_S512x256_S256x512_S512x512_1_0_0_1_n_n 256 rfl rfl k
  have el : dot_S512x256_S256x512_S512x512_1_0_0_1_n_n.lhsIdx (ix2 p q) ((contrEquiv1 dot_S512x256_S256x512_S512x512_1_0_0_1_n_n 256 rfl rfl).symm k) = ix2 p k :=
    funext fun a => Fin.ext (by
      match a with
      | ⟨0, _⟩ => exact tileDot_lhs_0 _ _
      | ⟨1, _⟩ => exact (tileDot_lhs_1 _ _).trans hk)
  have er : dot_S512x256_S256x512_S512x512_1_0_0_1_n_n.rhsIdx (ix2 p q) ((contrEquiv1 dot_S512x256_S256x512_S512x512_1_0_0_1_n_n 256 rfl rfl).symm k) = ix2 k q :=
    funext fun a => Fin.ext (by
      match a with
      | ⟨0, _⟩ => exact (tileDot_rhs_0 _ _).trans hk
      | ⟨1, _⟩ => exact tileDot_rhs_1 _ _)
  rw [el, er]

/-! ## The payloads of one grid point, each read at an index -/

/-- The squared norm of each row of a block, as a column, read at `(r, u)`. -/
theorem sqCol_apply (x : Vec Ideal S512x256 .f32) (r : Fin 512) (u : Fin 1) :
    shapeCast S512x1 (multiReduction (F := Ideal) .add [1] S512 (mulf x x) 0x00000000#32 reduces_S512x256_S512 (.inl rfl) rfl)
        shapeCasts_S512_S512x1 (ix2 r u)
      = ∑ k : Fin 256, x (ix2 r k) * x (ix2 r k) :=
  (shapeCast_a_a1_apply _ _ r u).trans (rowSum_apply (mulf x x) _ _ rfl r)

/-- The product of the first block with the transposed second one, read at `(p, q)`: the inner product of row `p` of
    the first with row `q` of the second (the format change on the way in is the identity on extended reals). -/
theorem gramTile_apply (x0 x1 : Vec Ideal S512x256 .f32) (p q : Fin 512) :
    matmul (F := Ideal) dot_S512x256_S256x512_S512x512_1_0_0_1_n_n none (truncf .bf16 x0 bitsLt_bf16_f32)
        (transpose S256x512 [1, 0] (truncf (F := Ideal) .bf16 x1 bitsLt_bf16_f32) transposes_S512x256_p1_0_S256x512)
        (constant S512x512 .f32 0x00000000#32) (ix2 p q)
      = ∑ k : Fin 256, x0 (ix2 p k) * x1 (ix2 q k) :=
  (tileDot_apply _ _ p q).trans (Finset.sum_congr rfl fun k _ => by
    rw [transpose_ix2_apply]; rfl)

/-- The squared-distance tile at `(p, q)`: the two rows' squared norms less twice their inner product. -/
theorem pay3_apply (x0 x1 : Vec Ideal S512x256 .f32) (p q : Fin 512) :
    k0_pay3 (F := Ideal) x0 x1 (ix2 p q)
      = ((∑ k : Fin 256, x0 (ix2 p k) * x0 (ix2 p k)) + ∑ k : Fin 256, x1 (ix2 q k) * x1 (ix2 q k))
          - Cert.Spec.two * ∑ k : Fin 256, x0 (ix2 p k) * x1 (ix2 q k) := by
  unfold k0_pay3
  try dsimp only
  rw [subf_apply, addf_apply, mulf_apply, broadcast_apply, broadcastTo_a1_ab_apply, broadcastTo_1b_ab_apply,
    transpose_ix2_apply, sqCol_apply, sqCol_apply, gramTile_apply]
  rfl

/-- The sign tile at `(p, q)`: −1 where the row block's label `p` and the column block's label `q` are one word, +1
    where they differ. -/
theorem pay4_apply (l0 : Vec Ideal S512x1 .i32) (l1 : Vec Ideal S1x512 .i32) (p q : Fin 512) :
    k0_pay4 (F := Ideal) l0 l1 (ix2 p q)
      = if l0 (ix2 p (0 : Fin 1)) = l1 (ix2 (0 : Fin 1) q) then Cert.Spec.negOne else Cert.Spec.posOne := by
  unfold k0_pay4
  try dsimp only
  rw [select_apply, broadcast_apply, broadcast_apply]
  show Scalar.select (IntOp.cmpi .eq (broadcastTo S512x512 (shapeCast S512x1 l0 shapeCasts_S512x1_S512x1) broadcasts_S512x1_S512x512 (ix2 p q))
      (broadcastTo S512x512 (shapeCast S1x512 l1 shapeCasts_S1x512_S1x512) broadcasts_S1x512_S512x512 (ix2 p q))) _ _ = _
  rw [broadcastTo_a1_ab_apply, broadcastTo_1b_ab_apply, shapeCast_self, shapeCast_self]
  unfold Scalar.select
  exact if_congr (cmpi_eq_one_iff _ _) rfl rfl

/-- The global row numbers at `(p, q)`: the word `512 I + p`. -/
theorem pay5_apply (i : grid0.Coords) (p q : Fin 512) :
    k0_pay5 i (ix2 p q) = IntOp.addi (Scalar.muli (BitVec.ofNat 32 (i 0).val) 512#32) (BitVec.ofNat 32 p.val) := by
  unfold k0_pay5
  try dsimp only
  exact congrArg (IntOp.addi (Scalar.muli (BitVec.ofNat 32 (i 0).val) 512#32))
    (iota_single_apply .tc S512x512 32 0 iota_S512x512_d0_w32 (ix2 p q))

/-- The zero the first point stores into the scratch. -/
theorem pay2_apply : k0_pay2 (F := Ideal) (ix2 (0 : Fin 1) (0 : Fin 1)) = 0 := by
  unfold k0_pay2
  try dsimp only
  rw [shapeCast_self, broadcast_apply]
  exact Ideal.ofBits_zero_f32

/-- The two lane sums of a tile, first along the rows then down the one column left, read at the one entry: the sum
    of the whole tile. -/
theorem tileSum_apply (v : FVec Ideal S512x512 .f32) :
    shapeCast S1x1 (multiReduction .add [0] S1
        (shapeCast S512x1 (multiReduction .add [1] S512 v 0x00000000#32 reduces_S512x512_S512 (.inl rfl) rfl) shapeCasts_S512_S512x1)
        0x00000000#32 reduces_S512x1_S1 (.inl rfl) rfl) shapeCasts_S1_S1x1 (ix2 (0 : Fin 1) (0 : Fin 1))
      = ∑ p : Fin 512, ∑ q : Fin 512, v (ix2 p q) :=
  (shapeCast_a_a1_apply _ _ (0 : Fin 1) (0 : Fin 1)).trans <| (colSum_apply _ _ _ rfl (0 : Fin 1)).trans <|
    Finset.sum_congr rfl fun p _ => (shapeCast_a_a1_apply _ _ p (0 : Fin 1)).trans (rowSum_apply v _ _ rfl p)

/-- What the body stores back into the scratch, read at its one entry: the entry it loaded plus the sum, over the tile,
    of distance times sign where the row word is below 4095 and the column word at least 1, zero elsewhere. -/
theorem pay1_apply (arg1 c : BitVec 32) (d s : FVec Ideal S512x512 .f32) (r : IVec S512x512 32) (a : Vec Ideal S1x1 .f32) :
    k0_pay1 (F := Ideal) arg1 d s r c a (ix2 (0 : Fin 1) (0 : Fin 1))
      = a (ix2 (0 : Fin 1) (0 : Fin 1)) + ∑ p : Fin 512, ∑ q : Fin 512,
          if IntOp.cmpi .slt (r (ix2 p q)) 4095#32 = 1#1
              ∧ IntOp.cmpi .sge (IntOp.addi (Scalar.muli arg1 c) (BitVec.ofNat 32 q.val)) 1#32 = 1#1
          then d (ix2 p q) * s (ix2 p q) else 0 := by
  unfold k0_pay1
  try dsimp only
  rw [shapeCast_self, addf_apply, tileSum_apply]
  refine congrArg (a (ix2 (0 : Fin 1) (0 : Fin 1)) + ·) (Finset.sum_congr rfl fun p _ => Finset.sum_congr rfl fun q _ => ?_)
  rw [select_apply, mulf_apply, broadcast_apply]
  show Scalar.select (IntOp.andi (IntOp.cmpi .slt (r (ix2 p q)) 4095#32)
      (IntOp.cmpi .sge (IntOp.addi (Scalar.muli arg1 c) (iota .tc S512x512 32 [1] iota_S512x512_d1_w32 (ix2 p q))) 1#32)) _ _ = _
  rw [iota_single_apply .tc S512x512 32 1 iota_S512x512_d1_w32 (ix2 p q)]
  unfold Scalar.select
  exact if_congr (andi_eq_one_iff _ _) rfl Ideal.ofBits_zero_f32

/-! ## One grid point -/

/-- THE STEP AT ITS ONE ENTRY: what the scratch held plus the tile's entries of the signed squared-distance matrix in
    global rows below 4095 and global columns from 1 on. -/
theorem step_apply (i : grid0.Coords) (x0 x1 : Vec Ideal S512x256 .f32) (l0 : Vec Ideal S512x1 .i32)
    (l1 : Vec Ideal S1x512 .i32) (a : Vec Ideal S1x1 .f32) :
    step (F := Ideal) i x0 x1 l0 l1 a (ix2 (0 : Fin 1) (0 : Fin 1))
      = a (ix2 (0 : Fin 1) (0 : Fin 1)) + ∑ p : Fin 512, ∑ q : Fin 512,
          if (i 0).val * 512 + p.val < 4095 ∧ 1 ≤ (i 1).val * 512 + q.val
          then (((∑ k : Fin 256, x0 (ix2 p k) * x0 (ix2 p k)) + ∑ k : Fin 256, x1 (ix2 q k) * x1 (ix2 q k))
                - Cert.Spec.two * ∑ k : Fin 256, x0 (ix2 p k) * x1 (ix2 q k))
              * (if l0 (ix2 p (0 : Fin 1)) = l1 (ix2 (0 : Fin 1) q) then Cert.Spec.negOne else Cert.Spec.posOne)
          else 0 := by
  have hI : (i 0).val < 8 := (i 0).isLt
  have hJ : (i 1).val < 8 := (i 1).isLt
  unfold step
  rw [pay1_apply]
  refine congrArg (a (ix2 (0 : Fin 1) (0 : Fin 1)) + ·) (Finset.sum_congr rfl fun p _ => Finset.sum_congr rfl fun q _ => ?_)
  rw [pay5_apply, pay3_apply, pay4_apply]
  exact if_congr (and_congr (rowMask_iff _ _ hI p.isLt) (colMask_iff _ _ hJ q.isLt)) rfl rfl

end Cert.KernelIdeal.Hand

end
-- ==== Proof.KI.Acc.lean ====
/-
  The scratch's running scalar is the specification's.

  The region walks the 8 × 8 grid in row-major order; point t is tile (t / 8, t mod 8).  The two feature windows
  at point t are rows 512 (t / 8) … and rows 512 (t mod 8) … of the feature matrix (a block's element sits in
  its array at block index × block extent + its own coordinate on each axis; the block indices are decided once
  over the 64 points), and the two label windows are the labels of the same two row ranges, read through the
  column and the row the label vector is reshaped to before the region (a reshape keeps the row-major position,
  so entry (r, 0) of the column and entry (0, r) of the row are both entry r of the vector).  With the blocks so
  identified, what one point adds to the scratch (`step_apply`, the arithmetic of one grid point) is the
  specification's `tile` at (t / 8, t mod 8), and an induction along the grid, from the zero the first point stores,
  gives the scratch after point n as `Cert.Spec.acc` before point n + 1.
-/
import proofs.«111789_j8203387535487_1_alg».proof.Proof.KI.Data
import proofs.«111789_j8203387535487_1_alg».proof.Proof.Spec
import proofs.«111789_j8203387535487_1_alg».proof.Proof.KI.Step
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open scoped BigOperators
open Idealize.ShloMosaic.StableHlo

variable (m : (ℓ : Loc nD τ sig) → Buf (Elt Ideal) ℓ)

/-! ## The grid's coordinates and the windows' block indices, decided over the grid -/

/-- Point `t` of the 8 × 8 grid, in row-major order, is tile `(t / 8, t mod 8)`. -/
theorem coords_facts : ∀ t : Fin cfg0.N, (grid0.coords t 0).val = t.val / 8 % 8 ∧ (grid0.coords t 1).val = t.val % 8 :=
  (by decide +kernel : ∀ t : Fin grid0.N, (grid0.coords t 0).val = t.val / 8 % 8 ∧ (grid0.coords t 1).val = t.val % 8)

/-- The two feature windows sit at row blocks `t / 8` and `t mod 8`, the label column at block `t / 8`, the label row
    at block `t mod 8`. -/
theorem index_facts : ∀ t : Fin cfg0.N,
    win0_0.index t (0 : Fin 2) = t.val / 8 % 8 ∧ win0_0.index t (1 : Fin 2) = 0
    ∧ win0_1.index t (0 : Fin 2) = t.val % 8 ∧ win0_1.index t (1 : Fin 2) = 0
    ∧ win0_2.index t (0 : Fin 2) = t.val / 8 % 8 ∧ win0_2.index t (1 : Fin 2) = 0
    ∧ win0_3.index t (0 : Fin 2) = 0 ∧ win0_3.index t (1 : Fin 2) = t.val % 8 :=
  (by decide +kernel : ∀ t : Fin grid0.N,
    win0_0.index t (0 : Fin 2) = t.val / 8 % 8 ∧ win0_0.index t (1 : Fin 2) = 0
    ∧ win0_1.index t (0 : Fin 2) = t.val % 8 ∧ win0_1.index t (1 : Fin 2) = 0
    ∧ win0_2.index t (0 : Fin 2) = t.val / 8 % 8 ∧ win0_2.index t (1 : Fin 2) = 0
    ∧ win0_3.index t (0 : Fin 2) = 0 ∧ win0_3.index t (1 : Fin 2) = t.val % 8)

/-! ## The arrays as the region finds them -/

/-- The two reshapes before the region do not write the feature matrix. -/
theorem V_arg0 (c : Dev nD) :
    (V m c main_arg0 : S4096x256.Idx → EReal) = m ((c : Thread nD τ).loc main_arg0) := by
  dsimp only [V, V0]
  simp only [hostOps0, List.flatten_cons, List.flatten_nil, List.append_nil]
  after_results
  try rfl

/-- The label column the region finds is the label vector cast to `[4096, 1]`. -/
theorem V_v0 (c : Dev nD) :
    (V m c main_v0 : S4096x1.Idx → BitVec 32)
      = shapeCast S4096x1 (m ((c : Thread nD τ).loc main_arg1) : S4096.Idx → BitVec 32) shapeCasts_S4096_S4096x1 := by
  dsimp only [V, V0]
  simp only [hostOps0, List.flatten_cons, List.flatten_nil, List.append_nil]
  after_results
  try rfl

/-- The label row the region finds is the label vector cast to `[1, 4096]`. -/
theorem V_v1 (c : Dev nD) :
    (V m c main_v1 : S1x4096.Idx → BitVec 32)
      = shapeCast S1x4096 (m ((c : Thread nD τ).loc main_arg1) : S4096.Idx → BitVec 32) shapeCasts_S4096_S1x4096 := by
  dsimp only [V, V0]
  simp only [hostOps0, List.flatten_cons, List.flatten_nil, List.append_nil]
  after_results
  try rfl

/-! ## The four blocks of a point, read off the launch arrays

A block's element sits in its array, on each axis, at the block index times the block's extent plus its own coordinate. -/

/-- The first feature block at point `t` is rows `512 (t / 8) …` of the feature matrix. -/
theorem iblk0_apply (c : Dev nD) (t : Fin cfg0.N) (p : Fin 512) (k : Fin 256) :
    (iblk m c 0 t : Vec Ideal S512x256 .f32) (ix2 p k)
      = (m ((c : Thread nD τ).loc main_arg0) : S4096x256.Idx → EReal)
          (ix2 (Cert.Spec.rowOf ⟨t.val / 8 % 8, Nat.mod_lt _ (by decide)⟩ p) k) := by
  obtain ⟨e0, e1, -⟩ := index_facts t
  unfold iblk
  rw [View.read_apply]
  show V m c main_arg0 _ = _
  rw [V_arg0 m c]
  refine congrArg _ (funext fun a => Fin.ext ?_)
  match a with
  | ⟨0, _⟩ => show win0_0.index t (0 : Fin 2) * 512 + 1 * p.val = t.val / 8 % 8 * 512 + p.val; rw [e0]; omega
  | ⟨1, _⟩ => show win0_0.index t (1 : Fin 2) * 256 + 1 * k.val = k.val; rw [e1]; omega

/-- The second feature block at point `t` is rows `512 (t mod 8) …` of the feature matrix. -/
theorem iblk1_apply (c : Dev nD) (t : Fin cfg0.N) (q : Fin 512) (k : Fin 256) :
    (iblk m c 1 t : Vec Ideal S512x256 .f32) (ix2 q k)
      = (m ((c : Thread nD τ).loc main_arg0) : S4096x256.Idx → EReal)
          (ix2 (Cert.Spec.rowOf ⟨t.val % 8, Nat.mod_lt _ (by decide)⟩ q) k) := by
  obtain ⟨-, -, e0, e1, -⟩ := index_facts t
  unfold iblk
  rw [View.read_apply]
  show V m c main_arg0 _ = _
  rw [V_arg0 m c]
  refine congrArg _ (funext fun a => Fin.ext ?_)
  match a with
  | ⟨0, _⟩ => show win0_1.index t (0 : Fin 2) * 512 + 1 * q.val = t.val % 8 * 512 + q.val; rw [e0]; omega
  | ⟨1, _⟩ => show win0_1.index t (1 : Fin 2) * 256 + 1 * k.val = k.val; rw [e1]; omega

/-- The label column at point `t` is the labels of rows `512 (t / 8) …`. -/
theorem iblk2_apply (c : Dev nD) (t : Fin cfg0.N) (p : Fin 512) :
    (iblk m c 2 t : Vec Ideal S512x1 .i32) (ix2 p (0 : Fin 1))
      = (m ((c : Thread nD τ).loc main_arg1) : S4096.Idx → BitVec 32)
          (ix1 (Cert.Spec.rowOf ⟨t.val / 8 % 8, Nat.mod_lt _ (by decide)⟩ p)) := by
  obtain ⟨-, -, -, -, e0, e1, -⟩ := index_facts t
  unfold iblk
  rw [View.read_apply]
  show V m c main_v0 _ = _
  rw [V_v0 m c]
  refine Eq.trans (congrArg _ (?_ : _ = ix2 (Cert.Spec.rowOf ⟨t.val / 8 % 8, Nat.mod_lt _ (by decide)⟩ p) (0 : Fin 1)))
    (shapeCast_a_a1_apply _ _ _ _)
  funext a
  apply Fin.ext
  match a with
  | ⟨0, _⟩ => show win0_2.index t (0 : Fin 2) * 512 + 1 * p.val = t.val / 8 % 8 * 512 + p.val; rw [e0]; omega
  | ⟨1, _⟩ => show win0_2.index t (1 : Fin 2) * 1 + 1 * 0 = 0; rw [e1]

/-- The label row at point `t` is the labels of rows `512 (t mod 8) …`. -/
theorem iblk3_apply (c : Dev nD) (t : Fin cfg0.N) (q : Fin 512) :
    (iblk m c 3 t : Vec Ideal S1x512 .i32) (ix2 (0 : Fin 1) q)
      = (m ((c : Thread nD τ).loc main_arg1) : S4096.Idx → BitVec 32)
          (ix1 (Cert.Spec.rowOf ⟨t.val % 8, Nat.mod_lt _ (by decide)⟩ q)) := by
  obtain ⟨-, -, -, -, -, -, e0, e1⟩ := index_facts t
  unfold iblk
  rw [View.read_apply]
  show V m c main_v1 _ = _
  rw [V_v1 m c]
  refine Eq.trans (congrArg _ (?_ : _ = ix2 (0 : Fin 1) (Cert.Spec.rowOf ⟨t.val % 8, Nat.mod_lt _ (by decide)⟩ q)))
    (shapeCast_a_1a_apply _ _ _ _)
  funext a
  apply Fin.ext
  match a with
  | ⟨0, _⟩ => show win0_3.index t (0 : Fin 2) * 1 + 1 * 0 = 0; rw [e0]
  | ⟨1, _⟩ => show win0_3.index t (1 : Fin 2) * 512 + 1 * q.val = t.val % 8 * 512 + q.val; rw [e1]; omega

/-! ## One point adds its tile -/

/-- The masked sum a point computes from its four blocks is the specification's tile, once each block is the rows of
    the feature matrix, or the labels, it is a window on. -/
theorem tile_of_blocks (x : Cert.Spec.Feat) (l : Cert.Spec.Lab) (I J : Fin 8)
    (x0 x1 : Vec Ideal S512x256 .f32) (l0 : Vec Ideal S512x1 .i32) (l1 : Vec Ideal S1x512 .i32)
    (h0 : ∀ p k, x0 (ix2 p k) = x (ix2 (Cert.Spec.rowOf I p) k))
    (h1 : ∀ q k, x1 (ix2 q k) = x (ix2 (Cert.Spec.rowOf J q) k))
    (h2 : ∀ p, l0 (ix2 p (0 : Fin 1)) = l (ix1 (Cert.Spec.rowOf I p)))
    (h3 : ∀ q, l1 (ix2 (0 : Fin 1) q) = l (ix1 (Cert.Spec.rowOf J q))) :
    (∑ p : Fin 512, ∑ q : Fin 512,
        if I.val * 512 + p.val < 4095 ∧ 1 ≤ J.val * 512 + q.val
        then (((∑ k : Fin 256, x0 (ix2 p k) * x0 (ix2 p k)) + ∑ k : Fin 256, x1 (ix2 q k) * x1 (ix2 q k))
              - Cert.Spec.two * ∑ k : Fin 256, x0 (ix2 p k) * x1 (ix2 q k))
            * (if l0 (ix2 p (0 : Fin 1)) = l1 (ix2 (0 : Fin 1) q) then Cert.Spec.negOne else Cert.Spec.posOne)
        else 0)
      = Cert.Spec.tile x l I J := by
  unfold Cert.Spec.tile Cert.Spec.term Cert.Spec.sqn Cert.Spec.gram Cert.Spec.sgn
  refine Finset.sum_congr rfl fun p _ => Finset.sum_congr rfl fun q _ => ?_
  simp only [h0, h1, h2, h3]

/-- So the step at tile `(I, J)` adds the specification's tile to the scratch's entry. -/
theorem step_tile (x : Cert.Spec.Feat) (l : Cert.Spec.Lab) (I J : Fin 8) (i : grid0.Coords)
    (hI : (i 0).val = I.val) (hJ : (i 1).val = J.val)
    (x0 x1 : Vec Ideal S512x256 .f32) (l0 : Vec Ideal S512x1 .i32) (l1 : Vec Ideal S1x512 .i32) (a : Vec Ideal S1x1 .f32)
    (h0 : ∀ p k, x0 (ix2 p k) = x (ix2 (Cert.Spec.rowOf I p) k))
    (h1 : ∀ q k, x1 (ix2 q k) = x (ix2 (Cert.Spec.rowOf J q) k))
    (h2 : ∀ p, l0 (ix2 p (0 : Fin 1)) = l (ix1 (Cert.Spec.rowOf I p)))
    (h3 : ∀ q, l1 (ix2 (0 : Fin 1) q) = l (ix1 (Cert.Spec.rowOf J q))) :
    step (F := Ideal) i x0 x1 l0 l1 a (ix2 (0 : Fin 1) (0 : Fin 1))
      = a (ix2 (0 : Fin 1) (0 : Fin 1)) + Cert.Spec.tile x l I J := by
  rw [step_apply, hI, hJ]
  exact congrArg _ (tile_of_blocks x l I J x0 x1 l0 l1 h0 h1 h2 h3)

/-! ## The running scalar -/

/-- THE SCRATCH AFTER POINT `n` holds the specification's running scalar before point `n + 1`: by induction along the
    grid, each point adding its tile (the first onto the zero it has just stored). -/
theorem scrAt_eq (c : Dev nD) : ∀ (n : ℕ) (hn : n < cfg0.N),
    scrAt (F := Ideal) m c n hn (ix2 (0 : Fin 1) (0 : Fin 1))
      = Cert.Spec.acc (m ((c : Thread nD τ).loc main_arg0)) (m ((c : Thread nD τ).loc main_arg1)) (n + 1)
  | 0, hn => by
    have hc := coords_facts ⟨0, hn⟩
    have e : scrAt (F := Ideal) m c 0 hn = step (grid0.coords ⟨0, hn⟩) (iblk m c 0 ⟨0, hn⟩) (iblk m c 1 ⟨0, hn⟩)
        (iblk m c 2 ⟨0, hn⟩) (iblk m c 3 ⟨0, hn⟩) (k0_pay2 (F := Ideal)) := rfl
    rw [e]
    refine (step_tile (m ((c : Thread nD τ).loc main_arg0)) (m ((c : Thread nD τ).loc main_arg1))
      ⟨0 / 8 % 8, Nat.mod_lt _ (by decide)⟩ ⟨0 % 8, Nat.mod_lt _ (by decide)⟩ (grid0.coords ⟨0, hn⟩) hc.1 hc.2
      (iblk m c 0 ⟨0, hn⟩) (iblk m c 1 ⟨0, hn⟩) (iblk m c 2 ⟨0, hn⟩) (iblk m c 3 ⟨0, hn⟩) (k0_pay2 (F := Ideal))
      (iblk0_apply m c ⟨0, hn⟩) (iblk1_apply m c ⟨0, hn⟩) (iblk2_apply m c ⟨0, hn⟩) (iblk3_apply m c ⟨0, hn⟩)).trans ?_
    rw [pay2_apply, Cert.Spec.acc, Cert.Spec.acc]
  | n + 1, hn => by
    have hc := coords_facts ⟨n + 1, hn⟩
    have e : scrAt (F := Ideal) m c (n + 1) hn = step (grid0.coords ⟨n + 1, hn⟩) (iblk m c 0 ⟨n + 1, hn⟩)
        (iblk m c 1 ⟨n + 1, hn⟩) (iblk m c 2 ⟨n + 1, hn⟩) (iblk m c 3 ⟨n + 1, hn⟩)
        (scrAt m c n (Nat.lt_of_succ_lt hn)) := rfl
    rw [e]
    refine (step_tile (m ((c : Thread nD τ).loc main_arg0)) (m ((c : Thread nD τ).loc main_arg1))
      ⟨(n + 1) / 8 % 8, Nat.mod_lt _ (by decide)⟩ ⟨(n + 1) % 8, Nat.mod_lt _ (by decide)⟩ (grid0.coords ⟨n + 1, hn⟩) hc.1 hc.2
      (iblk m c 0 ⟨n + 1, hn⟩) (iblk m c 1 ⟨n + 1, hn⟩) (iblk m c 2 ⟨n + 1, hn⟩) (iblk m c 3 ⟨n + 1, hn⟩)
      (scrAt m c n (Nat.lt_of_succ_lt hn))
      (iblk0_apply m c ⟨n + 1, hn⟩) (iblk1_apply m c ⟨n + 1, hn⟩) (iblk2_apply m c ⟨n + 1, hn⟩) (iblk3_apply m c ⟨n + 1, hn⟩)).trans ?_
    rw [Cert.Spec.acc, scrAt_eq c n (Nat.lt_of_succ_lt hn)]

end Cert.KernelIdeal.Hand

end
-- ==== Proof.Sums.lean ====
/-
  Sums: a finite sum in a commutative additive monoid may be cut into tiles and taken in any order.

  The running scalar after all 64 grid points is the sum of the 64 tile sums; the 8 × 8 grid of
  512 × 512 tiles covers the 4096 × 4096 index square exactly once; the entries that a tile replaces
  by zero are those of the last row and of the first column, so what is left is the sum over rows
  0 … 4094 and columns 1 … 4095.  Only commutativity and associativity of addition and the
  neutrality of zero are used; nothing is assumed finite and nothing is subtracted.
-/
import proofs.«111789_j8203387535487_1_alg».proof.Proof.Spec
import Mathlib.Algebra.BigOperators.Fin
import Mathlib.Data.Fintype.BigOperators

noncomputable section

namespace Cert.Spec

open Idealize.ShloMosaic Idealize.ShloMosaic.ValueIdx

/-! ## The grid and the tiling as bijections -/

/-- Grid point number t of 64, in row-major order, is tile (t / 8, t mod 8): a bijection between the 64 grid
    points and the pairs of a tile row and a tile column. -/
def gridEquiv : Fin 64 ≃ Fin 8 × Fin 8 where
  toFun t := (⟨t.val / 8 % 8, Nat.mod_lt _ (by decide)⟩, ⟨t.val % 8, Nat.mod_lt _ (by decide)⟩)
  invFun ij := ⟨ij.1.val * 8 + ij.2.val, by omega⟩
  left_inv := by
    intro t
    apply Fin.ext
    show t.val / 8 % 8 * 8 + t.val % 8 = t.val
    omega
  right_inv := by
    rintro ⟨i, j⟩
    apply Prod.ext
    · apply Fin.ext
      show (i.val * 8 + j.val) / 8 % 8 = i.val
      omega
    · apply Fin.ext
      show (i.val * 8 + j.val) % 8 = j.val
      omega

/-- Tile row i and local coordinate p make global coordinate 512 · i + p: a bijection between the pairs
    (i, p) and the 4096 global coordinates. -/
def rowEquiv : Fin 8 × Fin 512 ≃ Fin 4096 where
  toFun ip := rowOf ip.1 ip.2
  invFun r := (⟨r.val / 512, by omega⟩, ⟨r.val % 512, Nat.mod_lt _ (by decide)⟩)
  left_inv := by
    rintro ⟨i, p⟩
    apply Prod.ext
    · apply Fin.ext
      show (i.val * 512 + p.val) / 512 = i.val
      omega
    · apply Fin.ext
      show (i.val * 512 + p.val) % 512 = p.val
      omega
  right_inv := by
    intro r
    apply Fin.ext
    show r.val / 512 * 512 + r.val % 512 = r.val
    omega

/-! ## The combinatorial core, in any commutative additive monoid -/

section Core

variable {M : Type*} [AddCommMonoid M]

/-- Summing over the 64 grid points in row-major order is summing over tile rows and tile columns. -/
theorem sum_grid (g : Fin 8 → Fin 8 → M) :
    ∑ t ∈ Finset.range 64,
        g ⟨t / 8 % 8, Nat.mod_lt _ (by decide)⟩ ⟨t % 8, Nat.mod_lt _ (by decide)⟩
      = ∑ i : Fin 8, ∑ j : Fin 8, g i j := by
  rw [Finset.sum_range, ← Fintype.sum_prod_type']
  exact Fintype.sum_equiv gridEquiv _ _ (fun _ => rfl)

/-- Summing over tile rows and local coordinates is summing over the 4096 global coordinates. -/
theorem sum_rowOf (g : Fin 4096 → M) :
    ∑ i : Fin 8, ∑ p : Fin 512, g (rowOf i p) = ∑ r : Fin 4096, g r := by
  rw [← Fintype.sum_prod_type']
  exact Fintype.sum_equiv rowEquiv _ _ (fun _ => rfl)

/-- The 8 × 8 grid of 512 × 512 tiles covers the 4096 × 4096 square exactly once. -/
theorem sum_tiles (h : Fin 4096 → Fin 4096 → M) :
    ∑ i : Fin 8, ∑ j : Fin 8, ∑ p : Fin 512, ∑ q : Fin 512, h (rowOf i p) (rowOf j q)
      = ∑ r : Fin 4096, ∑ c : Fin 4096, h r c := by
  have hcols : ∀ r : Fin 4096,
      ∑ j : Fin 8, ∑ q : Fin 512, h r (rowOf j q) = ∑ c : Fin 4096, h r c :=
    fun r => sum_rowOf (fun c => h r c)
  calc ∑ i : Fin 8, ∑ j : Fin 8, ∑ p : Fin 512, ∑ q : Fin 512, h (rowOf i p) (rowOf j q)
      = ∑ i : Fin 8, ∑ p : Fin 512, ∑ j : Fin 8, ∑ q : Fin 512, h (rowOf i p) (rowOf j q) :=
        Finset.sum_congr rfl fun i _ => Finset.sum_comm
    _ = ∑ i : Fin 8, ∑ p : Fin 512, ∑ c : Fin 4096, h (rowOf i p) c :=
        Finset.sum_congr rfl fun i _ => Finset.sum_congr rfl fun p _ => hcols (rowOf i p)
    _ = ∑ r : Fin 4096, ∑ c : Fin 4096, h r c := sum_rowOf (fun r => ∑ c : Fin 4096, h r c)

/-- In a square of side n + 1, replacing the last row and the first column by zeros leaves the sum over rows
    0 … n − 1 against columns 1 … n. -/
theorem sum_trim (n : ℕ) (f : Fin (n + 1) → Fin (n + 1) → M) :
    ∑ r : Fin (n + 1), ∑ c : Fin (n + 1), (if r.val < n ∧ 1 ≤ c.val then f r c else 0)
      = ∑ r : Fin n, ∑ c : Fin n, f r.castSucc c.succ := by
  rw [Fin.sum_univ_castSucc]
  have hlast : ∑ c : Fin (n + 1),
      (if (Fin.last n).val < n ∧ 1 ≤ c.val then f (Fin.last n) c else 0) = 0 := by
    refine Finset.sum_eq_zero fun c _ => if_neg ?_
    intro hc
    exact absurd hc.1 (by simp)
  rw [hlast, add_zero]
  refine Finset.sum_congr rfl fun r _ => ?_
  rw [Fin.sum_univ_succ]
  have hfirst : (if r.castSucc.val < n ∧ 1 ≤ (0 : Fin (n + 1)).val then f r.castSucc 0 else 0) = 0 := by
    refine if_neg ?_
    intro hc
    exact absurd hc.2 (by simp)
  rw [hfirst, zero_add]
  refine Finset.sum_congr rfl fun c _ => if_pos ⟨?_, ?_⟩
  · simp
  · simp

/-- The tiles' sums, with zeros standing in for the last global row and the first global column, add up to
    the sum over rows 0 … 4094 against columns 1 … 4095. -/
theorem sum_tiles_trim (f : Fin 4096 → Fin 4096 → M) :
    ∑ i : Fin 8, ∑ j : Fin 8, ∑ p : Fin 512, ∑ q : Fin 512,
        (if i.val * 512 + p.val < 4095 ∧ 1 ≤ j.val * 512 + q.val then f (rowOf i p) (rowOf j q) else 0)
      = ∑ r : Fin 4095, ∑ c : Fin 4095, f r.castSucc c.succ :=
  (sum_tiles (fun r c => if r.val < 4095 ∧ 1 ≤ c.val then f r c else 0)).trans (sum_trim 4095 f)

end Core

/-! ## The running scalar -/

/-- The running scalar before grid point n is the sum of the tile sums of the grid points before n. -/
theorem acc_eq_sum_range (x : Feat) (l : Lab) (n : ℕ) :
    acc x l n = ∑ t ∈ Finset.range n,
      tile x l ⟨t / 8 % 8, Nat.mod_lt _ (by decide)⟩ ⟨t % 8, Nat.mod_lt _ (by decide)⟩ := by
  induction n with
  | zero => rfl
  | succ n ih => rw [Finset.sum_range_succ, ← ih]; rfl

/-- After all 64 grid points the running scalar is the sum the reference forms. -/
theorem acc_total (x : Feat) (l : Lab) : acc x l 64 = total x l := by
  rw [acc_eq_sum_range, sum_grid (fun i j => tile x l i j)]
  exact sum_tiles_trim (fun r c => term x l r c)

end Cert.Spec

end
-- ==== Proof.KI.Result.lean ====
/-
  The kernel's result is the specification's.

  After the lines that follow the region the scalar result buffer holds the scale word times the one
  entry of the result array; that entry is the scratch's after the last point, which is the
  specification's running scalar after all 64 points, and that is the reference's total.
-/
import proofs.«111789_j8203387535487_1_alg».proof.Proof.KI.Launch
import proofs.«111789_j8203387535487_1_alg».proof.Proof.KI.Acc
import proofs.«111789_j8203387535487_1_alg».proof.Proof.Sums

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-- Over the extended reals the scalar result buffer ends at `par · total` of the feature matrix and the label vector. -/
theorem result_eq (c : Dev nD) :
    (Wend (F := Ideal) m c (Proc.devRef .tc main_v4) : (⟨S_, .f32⟩ : BufTy).Contents (Elt Ideal))
      = fun _ => Cert.Spec.result (m ((c.tc : Thread nD τ).loc main_arg0)) (m ((c.tc : Thread nD τ).loc main_arg1)) := by
  rw [Wend_v4]
  funext i
  show Ideal.ofBits .f32 0x39000000#32 * scrAt (F := Ideal) m c 63 last_lt (ix2 (0 : Fin 1) (0 : Fin 1)) = _
  rw [scrAt_eq m c 63 last_lt, Cert.Spec.acc_total]
  rfl

end Cert.KernelIdeal.Hand

end
-- ==== Proof.lean ====
/-
  The certificate's claims, assembled.

  Both programs compute  par · Σ_{r < 4095} Σ_{1 ≤ c < 4096} ( |x_r|² + |x_c|² − 2 ⟨x_r, x_c⟩ ) · s(l_r, l_c)
  of the feature matrix x and the label vector l (`Cert.Spec.result`): the reference in one piece, the
  kernel tile by tile over an 8 × 8 grid into one running scalar.  The kernel's frame — at the word level
  and over the extended reals — is its launch with the feature matrix shared by two windows and the body
  run case by case (first point, middle points, last point); the reference's frame is its run with the
  result dropped; nothing was rewritten by the idealization, so there is nothing to preserve; and the two
  results agree because the kernel's scalar after the last point is the specification's accumulated total
  (the blocks read where the index maps say; the printed arithmetic of a point read at its one entry) and
  that total is the reference's sum, a finite sum in a commutative monoid cut into tiles.
-/
import proofs.«111789_j8203387535487_1_alg».proof.Defs
import proofs.«111789_j8203387535487_1_alg».proof.Proof.Gen.Kernel
import proofs.«111789_j8203387535487_1_alg».proof.Proof.Gen.KernelIdeal
import proofs.«111789_j8203387535487_1_alg».proof.Proof.Gen.ReferenceIdeal
import proofs.«111789_j8203387535487_1_alg».proof.Proof.Gen.Pre_finite_inputs
import proofs.«111789_j8203387535487_1_alg».proof.Proof.K.Body
import proofs.«111789_j8203387535487_1_alg».proof.Proof.K.Launch
import proofs.«111789_j8203387535487_1_alg».proof.Proof.KI.Body
import proofs.«111789_j8203387535487_1_alg».proof.Proof.KI.Launch
import proofs.«111789_j8203387535487_1_alg».proof.Proof.RefValue
import proofs.«111789_j8203387535487_1_alg».proof.Proof.KI.Result
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as they were. -/
theorem frame_k : Cert.frame_Kernel (hKernel := Cert.Kernel.Gen.facts) (hPre_finite_inputs := Cert.Pre_finite_inputs.Gen.facts) :=
  fun m ρ _ => Cert.Kernel.Hand.frame m ρ (Cert.Kernel.Hand.body_obligation m)

/-- So does the kernel read over the extended reals. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ (Cert.KernelIdeal.Hand.body_obligation m)

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run m ρ)

/-- Nothing was rewritten when the kernel was read over the extended reals, so nothing is to be preserved. -/
theorem preserves : Cert.preserves_Kernel_KernelIdeal := trivial

/-- Over the extended reals, from memories agreeing on the arguments, both programs end with their scalar result at
    `Cert.Spec.result` of the feature matrix and the label vector: the kernel's by its run and the accumulated total,
    the reference's by its run read entry by entry. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => fun _ => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.Hand.result_eq m c), (h c).2⟩)
      (Cert.KernelIdeal.Hand.run_value m ρ (Cert.KernelIdeal.Hand.body_obligation m))
  · refine (θ_run Cert.ReferenceIdeal.defs _ _).mono (fun _ h c => ⟨(h c).1.trans ?_, (h c).2⟩)
      (Cert.ReferenceIdeal.RefValue.run m' ρ')
    rw [(hagree c).1, (hagree c).2.1]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
